-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x4096 : Shape := ⟨2, ![4096, 4096]⟩
abbrev S4096 : Shape := ⟨1, ![4096]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg9 : FVec F S4096x4096 .f32) (main_arg10 : FVec F S4096 .f32) (main_v33 : IVec S_ 1) : IVec S_ 1 :=
  let main_v34 : FVec F S4096x4096 .f32 := Host.absf main_arg9
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg10
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg6 : FVec F S128x1 .f32) (main_arg7 : FVec F S128x1 .f32) (main_arg8 : FVec F S1 .f32) (main_arg9 : FVec F S4096x4096 .f32) (main_arg10 : FVec F S4096 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S262144x1 .f32) (main_arg1 : IVec S2097152 32) (main_arg2 : IVec S2097152 32) (main_arg3 : FVec F S1x128 .f32) (main_arg4 : FVec F S1x128 .f32) (main_arg5 : FVec F S128 .f32) (main_arg6 : FVec F S128x1 .f32) (main_arg7 : FVec F S128x1 .f32) (main_arg8 : FVec F S1 .f32) (main_arg9 : FVec F S4096x4096 .f32) (main_arg10 : FVec F S4096 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S262144x1 : Shape := ⟨2, ![262144, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x4096 : Shape := ⟨2, ![4096, 4096]⟩
abbrev S4096 : Shape := ⟨1, ![4096]⟩
abbrev S_ : Shape := ⟨0, ![]⟩
abbrev S2097152x1 : Shape := ⟨2, ![2097152, 1]⟩
abbrev S262144x128 : Shape := ⟨2, ![262144, 128]⟩
abbrev S8192x1 : Shape := ⟨2, ![8192, 1]⟩
abbrev S8192x128 : Shape := ⟨2, ![8192, 128]⟩
abbrev S2097152x128 : Shape := ⟨2, ![2097152, 128]⟩
abbrev S1x1 : Shape := ⟨2, ![1, 1]⟩
abbrev S8192 : Shape := ⟨1, ![8192]⟩
abbrev S64x4096 : Shape := ⟨2, ![64, 4096]⟩
abbrev S1x4096 : Shape := ⟨2, ![1, 4096]⟩
abbrev S64x512 : Shape := ⟨2, ![64, 512]⟩
abbrev S512x2048 : Shape := ⟨2, ![512, 2048]⟩
abbrev S1x2048 : Shape := ⟨2, ![1, 2048]⟩
abbrev S64x2048 : Shape := ⟨2, ![64, 2048]⟩

abbrev nBuf : Space → Nat
  | .hbm => 67
  | .vmem => 27
  | .smem => 0
  | _ => 0

abbrev bufTy : (tb : Table) → Fin (tcTables nBuf tb) → BufTy
  | .hbm, ⟨0, _⟩ => ⟨S262144x1, .f32⟩
  | .hbm, ⟨1, _⟩ => ⟨S2097152, .i32⟩
  | .hbm, ⟨2, _⟩ => ⟨S2097152, .i32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S4096x4096, .f32⟩
  | .hbm, ⟨10, _⟩ => ⟨S4096, .f32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152x1, .f32⟩
  | .hbm, ⟨20, _⟩ => ⟨S_, .f32⟩
  | .hbm, ⟨21, _⟩ => ⟨S262144x1, .f32⟩
  | .hbm, ⟨22, _⟩ => ⟨S2097152x1, .i32⟩
  | .hbm, ⟨23, _⟩ => ⟨S262144x1, .f32⟩
  | .hbm, ⟨24, _⟩ => ⟨S_, .f32⟩
  | .hbm, ⟨25, _⟩ => ⟨S2097152x1, .f32⟩
  | .hbm, ⟨26, _⟩ => ⟨S_, .f32⟩
  | .hbm, ⟨27, _⟩ => ⟨S262144x1, .f32⟩
  | .hbm, ⟨28, _⟩ => ⟨S2097152x1, .i32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S262144x1, .f32⟩
  | .hbm, ⟨34, _⟩ => ⟨S1x128, .f32⟩
  | .hbm, ⟨35, _⟩ => ⟨S262144x128, .f32⟩
  | .hbm, ⟨36, _⟩ => ⟨S_, .i32⟩
  | .hbm, ⟨37, _⟩ => ⟨S2097152, .i32⟩
  | .hbm, ⟨38, _⟩ => ⟨S2097152, .i1⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S2097152, .i32⟩
  | .hbm, ⟨43, _⟩ => ⟨S2097152x1, .i32⟩
  | .hbm, ⟨44, _⟩ => ⟨S2097152x128, .f32⟩
  | .hbm, ⟨45, _⟩ => ⟨S_, .f32⟩
  | .hbm, ⟨46, _⟩ => ⟨S262144x128, .f32⟩
  | .hbm, ⟨47, _⟩ => ⟨S2097152x1, .i32⟩
  | .hbm, ⟨48, _⟩ => ⟨S262144x128, .f32⟩
  | .hbm, ⟨49, _⟩ => ⟨S_, .f32⟩
  | .hbm, ⟨50, _⟩ => ⟨S2097152x1, .f32⟩
  | .hbm, ⟨51, _⟩ => ⟨S_, .f32⟩
  | .hbm, ⟨52, _⟩ => ⟨S262144x1, .f32⟩
  | .hbm, ⟨53, _⟩ => ⟨S2097152x1, .i32⟩
  | .hbm, ⟨54, _⟩ => ⟨S262144x1, .f32⟩
  | .hbm, ⟨55, _⟩ => ⟨S_, .f32⟩
  | .hbm, ⟨56, _⟩ => ⟨S262144x1, .f32⟩
  | .hbm, ⟨57, _⟩ => ⟨S262144x1, .f32⟩
  | .hbm, ⟨58, _⟩ => ⟨S262144x128, .f32⟩
  | .hbm, ⟨59, _⟩ => ⟨S262144x128, .f32⟩
  | .hbm, ⟨60, _⟩ => ⟨S1x128, .f32⟩
  | .hbm, ⟨61, _⟩ => ⟨S1x128, .f32⟩
  | .hbm, ⟨62, _⟩ => ⟨S1x1, .f32⟩
  | .hbm, ⟨63, _⟩ => ⟨S262144x1, .f32⟩
  | .hbm, ⟨64, _⟩ => ⟨S64x4096, .f32⟩
  | .hbm, ⟨65, _⟩ => ⟨S1x4096, .f32⟩
  | .hbm, ⟨66, _⟩ => ⟨S64x4096, .f32⟩
  | .local _ .vmem, ⟨0, _⟩ => ⟨S8192x1, .f32⟩
  | .local _ .vmem, ⟨1, _⟩ => ⟨S8192x1, .f32⟩
  | .local _ .vmem, ⟨2, _⟩ => ⟨S8192x1, .f32⟩
  | .local _ .vmem, ⟨3, _⟩ => ⟨S8192x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S8192x1, .f32⟩
  | .local _ .vmem, ⟨17, _⟩ => ⟨S8192x1, .f32⟩
  | .local _ .vmem, ⟨18, _⟩ => ⟨S64x512, .f32⟩
  | .local _ .vmem, ⟨19, _⟩ => ⟨S64x512, .f32⟩
  | .local _ .vmem, ⟨20, _⟩ => ⟨S512x2048, .f32⟩
  | .local _ .vmem, ⟨21, _⟩ => ⟨S512x2048, .f32⟩
  | .local _ .vmem, ⟨22, _⟩ => ⟨S1x2048, .f32⟩
  | .local _ .vmem, ⟨23, _⟩ => ⟨S1x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S262144x1 : S_.BroadcastsInDim S262144x1 (![] : Fin 0 → Fin S262144x1.rank)
  bcast_S_S2097152x1 : S_.BroadcastsInDim S2097152x1 (![] : Fin 0 → Fin S2097152x1.rank)
  shapeCasts_S128_S1x128 : S128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  shapeCasts_S128x1_S1x128 : S128x1.ShapeCasts S1x128
  shapeCasts_S1_S1x1 : S1.ShapeCasts S1x1
  shapeCasts_S8192x128_S8192x128 : S8192x128.ShapeCasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S8192x128_S8192 : S8192x128.Reduces [1] S8192
  shapeCasts_S8192_S8192x1 : S8192.ShapeCasts S8192x1
  broadcasts_S1x1_S8192x1 : S1x1.Broadcasts S8192x1
  shapeCasts_S262144x1_S64x4096 : S262144x1.ShapeCasts S64x4096
  shapeCasts_S4096_S1x4096 : S4096.ShapeCasts S1x4096
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  gather_S262144x1_S2097152x1_S2097152x1_1_0_n_n_0_1_11_wf : GatherDims.WF S262144x1 S2097152x1 S2097152x1 [1] [0] [] [0] [] 1 ![1, 1]
  scatter_S262144x1_S2097152x1_S2097152x1_1_0_0_1_wf : ScatterDims.WF S262144x1 S2097152x1 S2097152x1 [1] [0] [0] 1
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S262144x1.size a
  hwx0_0 : ∀ i : grid0.Coords, EltTy.bits .f32 = 32 ∨ (Rect.block (s := S262144x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S262144x128.size a
  hwx1_1 : ∀ i : grid1.Coords, EltTy.bits .f32 = 32 ∨ (Rect.block (s := S262144x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x1.size a ≤ S262144x1.size a
  hwx1_5 : ∀ i : grid1.Coords, EltTy.bits .f32 = 32 ∨ (Rect.block (s := S262144x1) S8192x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x4096.size a
  hwx2_0 : ∀ i : grid2.Coords, EltTy.bits .f32 = 32 ∨ (Rect.block (s := S64x4096) S64x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x4096.size a
  hwx2_1 : ∀ i : grid2.Coords, EltTy.bits .f32 = 32 ∨ (Rect.block (s := S4096x4096) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x2048.size a ≤ S64x4096.size a
  hwx2_3 : ∀ i : grid2.Coords, EltTy.bits .f32 = 32 ∨ (Rect.block (s := S64x4096) S64x2048.size (cc2_transform_3 i) (hinb2_3 i)).WholeWords (EltTy.packing .f32)

variable [Facts₀]

def gather_S262144x1_S2097152x1_S2097152x1_1_0_n_n_0_1_11 : GatherDims S262144x1 S2097152x1 S2097152x1 where
  offsetDims := [1]
  collapsedSliceDims := [0]
  operandBatchingDims := []
  startIndicesBatchingDims := []
  startIndexMap := [0]
  indexVectorDim := 1
  sliceSizes := ![1, 1]
  wf := gather_S262144x1_S2097152x1_S2097152x1_1_0_n_n_0_1_11_wf
def scatter_S262144x1_S2097152x1_S2097152x1_1_0_0_1 : ScatterDims S262144x1 S2097152x1 S2097152x1 where
  updateWindowDims := [1]
  insertedWindowDims := [0]
  scatterDimsToOperandDims := [0]
  indexVectorDim := 1
  wf := scatter_S262144x1_S2097152x1_S2097152x1_1_0_0_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S8192x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S262144x1 : Shape := ⟨2, ![262144, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x4096 : Shape := ⟨2, ![4096, 4096]⟩
abbrev S4096 : Shape := ⟨1, ![4096]⟩
abbrev S_ : Shape := ⟨0, ![]⟩
abbrev S2097152x1 : Shape := ⟨2, ![2097152, 1]⟩
abbrev S262144x128 : Shape := ⟨2, ![262144, 128]⟩
abbrev S2097152x128 : Shape := ⟨2, ![2097152, 128]⟩
abbrev S1x1 : Shape := ⟨2, ![1, 1]⟩
abbrev S64x4096 : Shape := ⟨2, ![64, 4096]⟩
abbrev S1x4096 : Shape := ⟨2, ![1, 4096]⟩

abbrev nBuf : Space → Nat
  | .hbm => 77
  | .vmem => 0
  | .smem => 0
  | _ => 0

abbrev bufTy : (tb : Table) → Fin (tcTables nBuf tb) → BufTy
  | .hbm, ⟨0, _⟩ => ⟨S262144x1, .f32⟩
  | .hbm, ⟨1, _⟩ => ⟨S2097152, .i32⟩
  | .hbm, ⟨2, _⟩ => ⟨S2097152, .i32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S4096x4096, .f32⟩
  | .hbm, ⟨10, _⟩ => ⟨S4096, .f32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152x1, .f32⟩
  | .hbm, ⟨20, _⟩ => ⟨S_, .f32⟩
  | .hbm, ⟨21, _⟩ => ⟨S262144x1, .f32⟩
  | .hbm, ⟨22, _⟩ => ⟨S2097152x1, .i32⟩
  | .hbm, ⟨23, _⟩ => ⟨S262144x1, .f32⟩
  | .hbm, ⟨24, _⟩ => ⟨S_, .f32⟩
  | .hbm, ⟨25, _⟩ => ⟨S2097152x1, .f32⟩
  | .hbm, ⟨26, _⟩ => ⟨S_, .f32⟩
  | .hbm, ⟨27, _⟩ => ⟨S262144x1, .f32⟩
  | .hbm, ⟨28, _⟩ => ⟨S2097152x1, .i32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S262144x1, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S1x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S_, .i32⟩
  | .hbm, ⟨42, _⟩ => ⟨S2097152, .i32⟩
  | .hbm, ⟨43, _⟩ => ⟨S2097152, .i1⟩
  | .hbm, ⟨44, _⟩ => ⟨S_, .i32⟩
  | .hbm, ⟨45, _⟩ => ⟨S2097152, .i32⟩
  | .hbm, ⟨46, _⟩ => ⟨S2097152, .i32⟩
  | .hbm, ⟨47, _⟩ => ⟨S2097152, .i32⟩
  | .hbm, ⟨48, _⟩ => ⟨S2097152x1, .i32⟩
  | .hbm, ⟨49, _⟩ => ⟨S2097152x128, .f32⟩
  | .hbm, ⟨50, _⟩ => ⟨S_, .f32⟩
  | .hbm, ⟨51, _⟩ => ⟨S262144x128, .f32⟩
  | .hbm, ⟨52, _⟩ => ⟨S2097152x1, .i32⟩
  | .hbm, ⟨53, _⟩ => ⟨S262144x128, .f32⟩
  | .hbm, ⟨54, _⟩ => ⟨S_, .f32⟩
  | .hbm, ⟨55, _⟩ => ⟨S2097152x1, .f32⟩
  | .hbm, ⟨56, _⟩ => ⟨S_, .f32⟩
  | .hbm, ⟨57, _⟩ => ⟨S262144x1, .f32⟩
  | .hbm, ⟨58, _⟩ => ⟨S2097152x1, .i32⟩
  | .hbm, ⟨59, _⟩ => ⟨S262144x1, .f32⟩
  | .hbm, ⟨60, _⟩ => ⟨S_, .f32⟩
  | .hbm, ⟨61, _⟩ => ⟨S262144x1, .f32⟩
  | .hbm, ⟨62, _⟩ => ⟨S262144x1, .f32⟩
  | .hbm, ⟨63, _⟩ => ⟨S262144x128, .f32⟩
  | .hbm, ⟨64, _⟩ => ⟨S262144x128, .f32⟩
  | .hbm, ⟨65, _⟩ => ⟨S262144x1, .f32⟩
  | .hbm, ⟨66, _⟩ => ⟨S262144x1, .f32⟩
  | .hbm, ⟨67, _⟩ => ⟨S262144x1, .f32⟩
  | .hbm, ⟨68, _⟩ => ⟨S1x1, .f32⟩
  | .hbm, ⟨69, _⟩ => ⟨S262144x1, .f32⟩
  | .hbm, ⟨70, _⟩ => ⟨S262144x1, .f32⟩
  | .hbm, ⟨71, _⟩ => ⟨S64x4096, .f32⟩
  | .hbm, ⟨72, _⟩ => ⟨S64x4096, .f32⟩
  | .hbm, ⟨73, _⟩ => ⟨S64x4096, .f32⟩
  | .hbm, ⟨74, _⟩ => ⟨S1x4096, .f32⟩
  | .hbm, ⟨75, _⟩ => ⟨S64x4096, .f32⟩
  | .hbm, ⟨76, _⟩ => ⟨S64x4096, .f32⟩
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S262144x1 : S_.BroadcastsInDim S262144x1 (![] : Fin 0 → Fin S262144x1.rank)
  bcast_S_S2097152x1 : S_.BroadcastsInDim S2097152x1 (![] : Fin 0 → Fin S2097152x1.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S64x4096 : S262144x1.ShapeCasts S64x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  gather_S262144x1_S2097152x1_S2097152x1_1_0_n_n_0_1_11_wf : GatherDims.WF S262144x1 S2097152x1 S2097152x1 [1] [0] [] [0] [] 1 ![1, 1]
  scatter_S262144x1_S2097152x1_S2097152x1_1_0_0_1_wf : ScatterDims.WF S262144x1 S2097152x1 S2097152x1 [1] [0] [0] 1
  dot_S262144x1_S1x128_S262144x128_1_0_0_1_n_n_wf : DotDims.WF S262144x1 S1x128 S262144x128 [1] [0] [0] [1] [] []
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S262144x128_S128x1_S262144x1_1_0_0_1_n_n_wf : DotDims.WF S262144x128 S128x1 S262144x1 [1] [0] [0] [1] [] []
  dot_S64x4096_S4096x4096_S64x4096_1_0_0_1_n_n_wf : DotDims.WF S64x4096 S4096x4096 S64x4096 [1] [0] [0] [1] [] []

variable [Facts₀]

def gather_S262144x1_S2097152x1_S2097152x1_1_0_n_n_0_1_11 : GatherDims S262144x1 S2097152x1 S2097152x1 where
  offsetDims := [1]
  collapsedSliceDims := [0]
  operandBatchingDims := []
  startIndicesBatchingDims := []
  startIndexMap := [0]
  indexVectorDim := 1
  sliceSizes := ![1, 1]
  wf := gather_S262144x1_S2097152x1_S2097152x1_1_0_n_n_0_1_11_wf
def scatter_S262144x1_S2097152x1_S2097152x1_1_0_0_1 : ScatterDims S262144x1 S2097152x1 S2097152x1 where
  updateWindowDims := [1]
  insertedWindowDims := [0]
  scatterDimsToOperandDims := [0]
  indexVectorDim := 1
  wf := scatter_S262144x1_S2097152x1_S2097152x1_1_0_0_1_wf
def dot_S262144x1_S1x128_S262144x128_1_0_0_1_n_n : DotDims S262144x1 S1x128 S262144x128 where
  lhsContracting := [1]
  rhsContracting := [0]
  lhsNonContracting := [0]
  rhsNonContracting := [1]
  lhsBatch := []
  rhsBatch := []
  wf := dot_S262144x1_S1x128_S262144x128_1_0_0_1_n_n_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

class Facts : Prop extends Facts₀ where

variable [Facts]
-- ==== Proof.K.R0.lean ====
/- REGION 0 of @main (pallas_call 0, `cc0__sage1_kernel`, pipeline 0), at a parameter `V` — the TensorCore's buffer
   contents when the region is entered. Each window's block at a point (`iblk0`); what the body leaves in the output
   window's buffer (`out0_5`: its one whole-rectangle store); the body's triple (`sound_kernel0`); the pipeline's
   proof data (`dat0`) and the body obligation at every point (`body_obligation0`). Generic in the float model. -/
import proofs.«154759_j4612794876151_1_alg».proof.Proof.Gen.Kernel.Launch
import proofs.«154759_j4612794876151_1_alg».proof.Proof.Gen.Kernel.Skeleton
import proofs.«154759_j4612794876151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8192x128 := Rect.unit (s := S8192x128) ![0, 0] S8192x128.size inb_S8192x128_S8192x128_0_0
abbrev r0_1 : Rect S8192x1 := Rect.unit (s := S8192x1) ![0, 0] S8192x1.size inb_S8192x1_S8192x1_0_0
abbrev r0_2 : Rect S1x128 := Rect.unit (s := S1x128) ![0, 0] S1x128.size inb_S1x128_S1x128_0_0

/-! ## What the body leaves in the output window's buffer -/

/-- Window 5's staging buffer after the body, from the input windows' blocks: its one store, of the payload at the
    inputs' whole-rectangle loads, as one piece. -/
def out0_5 (x0 : Vec F S8192x1 .f32) (x1 : Vec F S8192x1 .f32) (x2 : Vec F S1x128 .f32) (x3 : Vec F S1x128 .f32) (x4 : Vec F S1x128 .f32) : Vec F S8192x128 .f32 :=
  View.canon [⟨r0_0, k0_pay1 (View.ld x0 r0_1) (View.ld x1 r0_1) (View.ld x2 r0_2) (View.ld x3 r0_2) (View.ld x4 r0_2)⟩]

/-- The store is of the whole buffer, so it covers it. -/
theorem cover0_5 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S8192x1 .f32) (harg1 : arg1.IsWhole) (arg2 : Memref sig .tc .vmem S8192x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole)
    (x0 : Vec F S8192x1 .f32) (x1 : Vec F S8192x1 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of @main (pallas_call 1, the kernel function cc1__sage2_kernel, pipeline cfg1), at a PARAMETER V — the
   TensorCore's buffer contents when the region is entered —, at any F: each window's block at a point (iblk1), the
   output window's buffer after the body as one whole-rectangle piece of the payload k1_pay1 over the five input blocks
   (out1_5), the body's triple (sound_kernel1), the pipeline's proof data (dat1) and its body obligation
   (body_obligation1). Inputs 0,1 move with the grid point (index map (i,0)); inputs 2,3,4 have a constant index map and
   are fetched at the first point only: their buffers still hold their one block at every later point. -/
import proofs.«154759_j4612794876151_1_alg».proof.Proof.Gen.Kernel.Launch
import proofs.«154759_j4612794876151_1_alg».proof.Proof.Gen.Kernel.Skeleton
import proofs.«154759_j4612794876151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is V's (hA) and whose body leaves the block in place (hafter): unfetched, the index has not moved; the
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2, whose index map is constant: fetched at the first point only, its buffer holds the one
    block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant index map). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (constant index map). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take their buffer's whole rectangle -/

abbrev r1_0 : Rect S8192x128 := Rect.unit (s := S8192x128) ![0, 0] S8192x128.size inb_S8192x128_S8192x128_0_0
abbrev r1_1 : Rect S1x128 := Rect.unit (s := S1x128) ![0, 0] S1x128.size inb_S1x128_S1x128_0_0
abbrev r1_2 : Rect S1x1 := Rect.unit (s := S1x1) ![0, 0] S1x1.size inb_S1x1_S1x1_0_0
abbrev r1_3 : Rect S8192x1 := Rect.unit (s := S8192x1) ![0, 0] S8192x1.size inb_S8192x1_S8192x1_0_0

/-! ## What the body leaves in the output window's buffer -/

/-- Window 5's staging buffer after the body, from the input windows' blocks: its one store as a piece. -/
def out1_5 (x0 : Vec F S8192x128 .f32) (x1 : Vec F S8192x128 .f32) (x2 : Vec F S1x128 .f32) (x3 : Vec F S1x128 .f32) (x4 : Vec F S1x1 .f32) :
    Vec F S8192x1 .f32 :=
  View.canon [⟨r1_3, k1_pay1 (View.ld x0 r1_0) (View.ld x1 r1_0) (View.ld x2 r1_1) (View.ld x3 r1_1) (View.ld x4 r1_2)⟩]

/-- The store tiles the buffer (checked by evaluation), so it covers it. -/
theorem cover1_5 (p0 : Vec F S8192x1 .f32) (y : S8192x1.Idx) :
    ∃ pc ∈ ([⟨r1_3, p0⟩] : List (View.Piece (Elt F) S8192x1 .f32)), y ∈ pc.1.set :=
  View.cover_of_tiled [⟨r1_3, p0⟩] S8192x1.size (by rfl) y

/-! ## The body's triple -/

set_option maxHeartbeats 1000000 in
/-- The kernel body on whole staging memrefs, the inputs' at read contents xW and the output's at anything, runs to the
    continuation holding the inputs' as they were and the output's at out1_5 of the inputs'. -/
theorem sound_kernel1 (c : Dev nD) (E : Set ℕ) (i : grid1.Coords)
    (arg0 : Memref sig .tc .vmem S8192x128 .f32) (harg0 : arg0.IsWhole) (arg1 : Memref sig .tc .vmem S8192x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x1 .f32) (harg4 : arg4.IsWhole) (arg5 : Memref sig .tc .vmem S8192x1 .f32) (harg5 : arg5.IsWhole)
    (x0 : Vec F S8192x128 .f32) (x1 : Vec F S8192x128 .f32) (x2 : Vec F S1x128 .f32) (x3 : Vec F S1x128 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__sage2_kernel i arg0 harg0 arg1 harg1 arg2 harg2 arg3 harg3 arg4 harg4 arg5 harg5) K := by
  simp only [cc1__sage2_kernel_eq_skeleton]; unfold cc1__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them (V); after the body at point t each
    input's buffer at its block and the output's at out1_5 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t (the precondition of the body obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (before1_W), so sound_kernel1 applies; the invariant
    and the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
/- REGION 2 of @main (pallas_call 2, `cc2__mm_kernel`, pipeline 2), at a parameter `V` — the TensorCore's buffer
   contents when the region is entered: what the three runs of its body share. Each window's block at a point
   (`iblk2`) and the input windows' buffers at their blocks; the body's two branch conditions in closed form over the
   grid (`hcond2_0`: the accumulator is reset where the inner coordinate is 0; `hcond2_1`: the output is written where
   it is 7); where the output window is idle; the staging and scratch memrefs; the region invariant with the scratch
   accumulator owned as a memref. Generic in the float model. -/
import proofs.«154759_j4612794876151_1_alg».proof.Proof.Gen.Kernel.Launch
import proofs.«154759_j4612794876151_1_alg».proof.Proof.Gen.Kernel.Skeleton
import proofs.«154759_j4612794876151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the accumulator's reset), from the grid coordinates: the inner
    coordinate compared with 0. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (the output's store), from the grid coordinates: the inner
    coordinate compared with 7. -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- At the points of case A output 3 is idle: the case stores nothing into it. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B output 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C output 3 is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of output window 3, through which its contents are stated (the choice does not matter). -/
abbrev VO2_3 : View sig .tc .vmem S64x2048 .f32 := (Memref.whole cc2_stg3_0 : Memref sig .tc .vmem S64x2048 .f32).view
/-- Each window's current staging memref at point `t`, spelled as the pipeline passes it, and its wholeness. -/
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S64x2048 .f32 := Memref.whole cc2_scratch0
/-- The scratch accumulator the kernel carries between points, as a view: what it holds is stated through it. -/
abbrev VS2_0 : View sig .tc .vmem S64x2048 .f32 := scM2_0.view

/-! ## The region invariant with the scratch accumulator as a memref -/

/-- The core's scoped buffers that are no staging buffer of this call, split at the call's own scratch accumulator:
    its points-to at some contents, and every other scoped buffer (the other calls' staging buffers) left unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scoped buffers of the core other than this call's staging buffers and scratch accumulator, each at some
    contents: carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The region's invariant with the scratch accumulator as a memref owned at some contents: what the body
    obligation hands the run and takes back. -/
theorem PhiA2_eq (c : Dev nD) :
    (Pipeline.ΦA spec2 c : sProp 𝕄)
      = iprop(iprop(iprop((∃ d, owns (c : Thread nD τ) scM2_0 fullShare d)) ∗ others2 c) ∗ (∃ r, prngReg c r)) := by
  unfold Pipeline.ΦA; rw [scopedRest2_split]; simp only [scM2_0, owns_whole]; try rfl

end Cert.Kernel.Hand

end
-- ==== Proof.K.R2RunA.lean ====
/- REGION 2, the whole-body run of `cc2__mm_kernel` IN CASE A (first `scf.if` taken, second not: the points where the
   inner coordinate is 0): the body's triple, with the pieces each buffer ends with as the witness. Generic in the
   float model. -/
import proofs.«154759_j4612794876151_1_alg».proof.Proof.K.R2Runs

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case A, WITH the proof that on whole staging memrefs — the
    inputs' at their contents, the output's (no store: idle at these points) at contents `xi3` handed back untouched,
    the scratch accumulator at anything — the body runs to the continuation holding the inputs' as they were, the
    output's as it was, and the scratch accumulator with its pieces written (`LS0`: the reset, then the first product
    added). -/
noncomputable def kernelRun2_A (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2RunB.lean ====
/- REGION 2, the whole-body run of `cc2__mm_kernel` IN CASE B (neither `scf.if` taken: the points where the inner
   coordinate is 1 to 6): the body's triple, with the pieces each buffer ends with as the witness. Generic in the float
   model. -/
import proofs.«154759_j4612794876151_1_alg».proof.Proof.K.R2Runs

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case B, WITH the proof that on whole staging memrefs — the
    inputs' at their contents, the output's (no store: idle at these points) at contents `xi3` handed back untouched,
    the scratch accumulator at what the point before left (`xs0`) — the body runs to the continuation holding the
    inputs' as they were, the output's as it was, and the scratch accumulator with its pieces written (`LS0`: this
    point's product added). -/
noncomputable def kernelRun2_B (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2RunC.lean ====
/- REGION 2, the whole-body run of `cc2__mm_kernel` IN CASE C (first `scf.if` not taken, second taken: the points
   where the inner coordinate is 7): the body's triple, with the pieces each buffer ends with as the witness. Generic
   in the float model. -/
import proofs.«154759_j4612794876151_1_alg».proof.Proof.K.R2Runs

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case C, WITH the proof that on whole staging memrefs — the
    inputs' at their contents, the output's at anything, the scratch accumulator at what the point before left
    (`xs0`) — the body runs to the continuation holding the inputs' as they were, the output's with its pieces written
    (`L3`: the accumulated sum with the bias row added), and the scratch accumulator with its pieces written (`LS0`:
    this point's product added). -/
noncomputable def kernelRun2_C (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) :
    Σ' (L3 : List (View.Piece (Elt F) S64x2048 .f32)), { LS0 : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R2.lean ====
/- REGION 2 of @main (pallas_call 2, `cc2__mm_kernel`, pipeline 2), at a parameter `V` — the TensorCore's buffer
   contents when the region is entered: what the output window's buffer and the scratch accumulator hold per case of the
   body's two conditionals (the runs' pieces read back, with their covers) and point by point (`outsAt2`: the accumulator
   reset where the inner coordinate is 0, one product added at every point, the output written with the bias row added
   where it is 7); the region invariant carrying the accumulator's contents between points (`PhiS2`); the pipeline's
   proof data (`dat2`), the body obligation at every point (`body_obligation2`), and the invariant's two ends
   (`hin2`, `hout2`). Generic in the float model. -/
import proofs.«154759_j4612794876151_1_alg».proof.Proof.K.R2RunA
import proofs.«154759_j4612794876151_1_alg».proof.Proof.K.R2RunB
import proofs.«154759_j4612794876151_1_alg».proof.Proof.K.R2RunC

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the scratch accumulator -/

/-- Case A stores nothing into output 3 (the window is idle at its points and not written back there): no pieces — a
    placeholder (junk read back) that nothing consults, since at these points the window is neither written back nor
    read at the next point. -/
def out2_A_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) : Vec F S64x2048 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the scratch accumulator, which the kernel carries between points, cover it (whole-block stores). -/
theorem scover2_A_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) (y : S64x2048.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S64x2048.size (by sl_kernel_rfl) y

/-- What case A leaves in the scratch accumulator: its pieces read back over junk. -/
def sout2_A_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) : Vec F S64x2048 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into output 3 (the window is idle at its points and not written back there): no pieces — a
    placeholder (junk read back) that nothing consults, since at these points the window is neither written back nor
    read at the next point. -/
def out2_B_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) : Vec F S64x2048 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the scratch accumulator, which the kernel carries between points, cover it (whole-block stores). -/
theorem scover2_B_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) (y : S64x2048.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S64x2048.size (by sl_kernel_rfl) y

/-- What case B leaves in the scratch accumulator: its pieces read back over junk. -/
def sout2_B_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) : Vec F S64x2048 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for output 3 tile its block (one store of the whole block), so they cover it. -/
theorem cover2_C_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) (y : S64x2048.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S64x2048.size (by sl_kernel_rfl) y

/-- What case C leaves in output 3's staging buffer: its pieces read back over junk. -/
def out2_C_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) : Vec F S64x2048 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the scratch accumulator, which the kernel carries between points, cover it (whole-block stores). -/
theorem scover2_C_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) (y : S64x2048.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S64x2048.size (by sl_kernel_rfl) y

/-- What case C leaves in the scratch accumulator: its pieces read back over junk. -/
def sout2_C_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) : Vec F S64x2048 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output and the accumulator hold after each point -/

/-- THE ACCUMULATION. What output window 3's staging buffer and the scratch accumulator hold after the body at position
    `n` (a pair: the output, then the scratch): the case the closed forms select at `n`, run at the point's memrefs and
    input blocks, the scratch accumulator at what this leaves at `n - 1` (cases B and C; case A resets it). An assignment
    of the conditions no point meets is no case. -/
def outsAt2 (c : Dev nD) : (n : ℕ) → n < cfg2.N → Vec F S64x2048 .f32 × Vec F S64x2048 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by have hN : n + 1 < 16 := lt_of_lt_of_eq hn (show cfg2.N = 16 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the kernel CARRYING its scratch accumulator between points: before the
    first point the class's (every scoped buffer that is no staging buffer of the call at anything); afterwards the same
    with the accumulator at what the point before left in it (`outsAt2`'s second component), the other scoped buffers
    unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ others2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ others2 c) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `outsAt2`'s first component; the invariant `PhiS2` (the class's
    before the first point, then the scoped rest with the scratch accumulator at `outsAt2`'s second component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks (`before2_W`); the closed forms say which case the point
    is in; so that case's run applies; the invariant hands the body the scratch accumulator at what the point before left
    (at anything at the first point), the other scoped buffers and the generator register pass through, and the
    accumulator is taken back at this point's contents (its pieces cover it); the output window, idle in cases A and B,
    is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.K.Run.lean ====
/-
  The run of the whole program: the buffers' contents at each boundary between a stretch of host operations and a kernel
  region, folded from the launch memory; each region entered from the contents the stretch before it leaves and left with
  its output array at what its write-backs leave; and, at the end, every unscoped buffer at the last boundary's contents.
  Region 2 carries its accumulator between grid points, so its invariant gives the scoped rest back only after the last point.
-/
import proofs.«154759_j4612794876151_1_alg».proof.Proof.K.R0
import proofs.«154759_j4612794876151_1_alg».proof.Proof.K.R1
import proofs.«154759_j4612794876151_1_alg».proof.Proof.K.R2
import proofs.«154759_j4612794876151_1_alg».proof.Proof.Gen.Kernel.Launch
import proofs.«154759_j4612794876151_1_alg».proof.Proof.Gen.Kernel.Points
import proofs.«154759_j4612794876151_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data of every region, and what rides beside the buffers -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the invariant and comes out; the invariant is
    the class's before the first point and gives it back after the last (the carried accumulator's contents forgotten). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have htake : (Pipeline.ΦA spec2 c : sProp 𝕄) ⊢ (pdats m ρ 2 c).Φ 0 := hin2 (V5 m ρ) c
    unfold Pipeline.ΦA at htake
    iintro ⟨Hp, -, Hr⟩
    iapply htake
    isplitl [Hr]; · iexact Hr
    iexact Hp
  hout c := by
    rw [Pipeline.ownSems0_none]
    have hgive : (pdats m ρ 2 c).Φ (Fin.last _) ⊢ (Pipeline.ΦA spec2 c : sProp 𝕄) := hout2 (V5 m ρ) c
    unfold Pipeline.ΦA at hgive
    iintro H0
    ihave H := hgive $$ H0
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates, nothing
    faulting, and in every final state each unscoped buffer holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## What no stretch and no region changes -/

section Kept
variable (c : Dev nD)

theorem W1_of (r : Ref sig .tc) (h : r ∉ hostOps0_W) : W1 m ρ c (Proc.devRef .tc r) = W0 m ρ c (Proc.devRef .tc r) :=
  StableHlo.after_of_writes_sub hostOps0 _ hostOps0_writes h
theorem W3_of (r : Ref sig .tc) (h : r ∉ hostOps1_W) : W3 m ρ c (Proc.devRef .tc r) = W2 m ρ c (Proc.devRef .tc r) :=
  StableHlo.after_of_writes_sub hostOps1 _ hostOps1_writes h
theorem W5_of (r : Ref sig .tc) (h : r ∉ hostOps2_W) : W5 m ρ c (Proc.devRef .tc r) = W4 m ρ c (Proc.devRef .tc r) :=
  StableHlo.after_of_writes_sub hostOps2 _ hostOps2_writes h

/-- Region 0 changes only its output array: an input array ends as entered, any other buffer is bypassed. -/
theorem W2_keep (r : Ref sig .tc) (h : r ≠ main_v18) : W2 m ρ c (Proc.devRef .tc r) = W1 m ρ c (Proc.devRef .tc r) := by
  by_cases hex : ∃ w, Pipeline.arrRef spec0 w = r
  · obtain ⟨w, rfl⟩ := hex
    rw [W2_arr]
    fin_cases w <;> first
      | exact absurd rfl h
      | exact ((dat0 (V1 m ρ) c).arrAt_in _ rfl _).trans (A_eq0 (V1 m ρ) c _)
  · exact W2_of_ne m ρ c r fun w e => hex ⟨w, e⟩
/-- Region 1 changes only its output array. -/
theorem W4_keep (r : Ref sig .tc) (h : r ≠ main_v40) : W4 m ρ c (Proc.devRef .tc r) = W3 m ρ c (Proc.devRef .tc r) := by
  by_cases hex : ∃ w, Pipeline.arrRef spec1 w = r
  · obtain ⟨w, rfl⟩ := hex
    rw [W4_arr]
    fin_cases w <;> first
      | exact absurd rfl h
      | exact ((dat1 (V3 m ρ) c).arrAt_in _ rfl _).trans (A_eq1 (V3 m ρ) c _)
  · exact W4_of_ne m ρ c r fun w e => hex ⟨w, e⟩
/-- Region 2 changes only its output array. -/
theorem W6_keep (r : Ref sig .tc) (h : r ≠ main_v43) : W6 m ρ c (Proc.devRef .tc r) = W5 m ρ c (Proc.devRef .tc r) := by
  by_cases hex : ∃ w, Pipeline.arrRef spec2 w = r
  · obtain ⟨w, rfl⟩ := hex
    rw [W6_arr]
    fin_cases w <;> first
      | exact absurd rfl h
      | exact ((dat2 (V5 m ρ) c).arrAt_in _ rfl _).trans (A_eq2 (V5 m ρ) c _)
  · exact W6_of_ne m ρ c r fun w e => hex ⟨w, e⟩

/-- A buffer that no host operation writes and that is no region's output ends as launched. -/
theorem W6_launch (r : Ref sig .tc) (h0 : r ∉ hostOps0_W) (h1 : r ∉ hostOps1_W) (h2 : r ∉ hostOps2_W)
    (h18 : r ≠ main_v18) (h40 : r ≠ main_v40) (h43 : r ≠ main_v43) :
    W6 m ρ c (Proc.devRef .tc r) = m ((c : Thread nD τ).loc r) :=
  (W6_keep m ρ c r h43).trans <| (W5_of m ρ c r h2).trans <| (W4_keep m ρ c r h40).trans <| (W3_of m ρ c r h1).trans <|
    (W2_keep m ρ c r h18).trans <| (W1_of m ρ c r h0).trans rfl

/-- Up to region 0's exit, up to region 1's exit, and up to region 2's entry: a buffer not yet written holds its launch contents. -/
theorem W1_launch (r : Ref sig .tc) (h0 : r ∉ hostOps0_W) : W1 m ρ c (Proc.devRef .tc r) = m ((c : Thread nD τ).loc r) :=
  (W1_of m ρ c r h0).trans rfl
theorem W2_launch (r : Ref sig .tc) (h0 : r ∉ hostOps0_W) (h18 : r ≠ main_v18) :
    W2 m ρ c (Proc.devRef .tc r) = m ((c : Thread nD τ).loc r) :=
  (W2_keep m ρ c r h18).trans (W1_launch m ρ c r h0)
theorem W4_launch (r : Ref sig .tc) (h0 : r ∉ hostOps0_W) (h1 : r ∉ hostOps1_W) (h18 : r ≠ main_v18) (h40 : r ≠ main_v40) :
    W4 m ρ c (Proc.devRef .tc r) = m ((c : Thread nD τ).loc r) :=
  (W4_keep m ρ c r h40).trans <| (W3_of m ρ c r h1).trans (W2_launch m ρ c r h0 h18)
theorem W5_launch (r : Ref sig .tc) (h0 : r ∉ hostOps0_W) (h1 : r ∉ hostOps1_W) (h2 : r ∉ hostOps2_W) (h18 : r ≠ main_v18) (h40 : r ≠ main_v40) :
    W5 m ρ c (Proc.devRef .tc r) = m ((c : Thread nD τ).loc r) :=
  (W5_of m ρ c r h2).trans (W4_launch m ρ c r h0 h1 h18 h40)

end Kept

/-- THE FRAME: every weakly fair execution terminates, nothing faulting, and every argument array ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide)),
    (h c _ (mem_uc main_arg9 (by decide))).trans (W6_launch m ρ c main_arg9 (by decide) (by decide) (by decide) (by decide) (by decide) (by decide)),
    (h c _ (mem_uc main_arg10 (by decide))).trans (W6_launch m ρ c main_arg10 (by decide) (by decide) (by decide) (by decide) (by decide) (by decide))⟩) (run_all m ρ)

/-- THE RUN WITH ITS RESULTS: as `run_all`, read at the two result arrays and at the argument arrays. -/
theorem run_results : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v41 (by decide)), h c _ (mem_uc main_v43 (by decide)),
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide)),
    (h c _ (mem_uc main_arg9 (by decide))).trans (W6_launch m ρ c main_arg9 (by decide) (by decide) (by decide) (by decide) (by decide) (by decide)),
    (h c _ (mem_uc main_arg10 (by decide))).trans (W6_launch m ρ c main_arg10 (by decide) (by decide) (by decide) (by decide) (by decide) (by decide))⟩) (run_all m ρ)

end Cert.Kernel.Hand

end
-- ==== Proof.KI.R0.lean ====
/- REGION 0 of @main (pallas_call 0, `cc0__sage1_kernel`, pipeline 0), at a parameter `V` — the TensorCore's buffer
   contents when the region is entered. Each window's block at a point (`iblk0`); what the body leaves in the output
   window's buffer (`out0_5`: its one whole-rectangle store); the body's triple (`sound_kernel0`); the pipeline's
   proof data (`dat0`) and the body obligation at every point (`body_obligation0`). Generic in the float model. -/
import proofs.«154759_j4612794876151_1_alg».proof.Proof.Gen.KernelIdeal.Launch
import proofs.«154759_j4612794876151_1_alg».proof.Proof.Gen.KernelIdeal.Skeleton
import proofs.«154759_j4612794876151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8192x128 := Rect.unit (s := S8192x128) ![0, 0] S8192x128.size inb_S8192x128_S8192x128_0_0
abbrev r0_1 : Rect S8192x1 := Rect.unit (s := S8192x1) ![0, 0] S8192x1.size inb_S8192x1_S8192x1_0_0
abbrev r0_2 : Rect S1x128 := Rect.unit (s := S1x128) ![0, 0] S1x128.size inb_S1x128_S1x128_0_0

/-! ## What the body leaves in the output window's buffer -/

/-- Window 5's staging buffer after the body, from the input windows' blocks: its one store, of the payload at the
    inputs' whole-rectangle loads, as one piece. -/
def out0_5 (x0 : Vec F S8192x1 .f32) (x1 : Vec F S8192x1 .f32) (x2 : Vec F S1x128 .f32) (x3 : Vec F S1x128 .f32) (x4 : Vec F S1x128 .f32) : Vec F S8192x128 .f32 :=
  View.canon [⟨r0_0, k0_pay1 (View.ld x0 r0_1) (View.ld x1 r0_1) (View.ld x2 r0_2) (View.ld x3 r0_2) (View.ld x4 r0_2)⟩]

/-- The store is of the whole buffer, so it covers it. -/
theorem cover0_5 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S8192x1 .f32) (harg1 : arg1.IsWhole) (arg2 : Memref sig .tc .vmem S8192x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole)
    (x0 : Vec F S8192x1 .f32) (x1 : Vec F S8192x1 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of @main (pallas_call 1, the kernel function cc1__sage2_kernel, pipeline cfg1), at a PARAMETER V — the
   TensorCore's buffer contents when the region is entered —, at any F: each window's block at a point (iblk1), the
   output window's buffer after the body as one whole-rectangle piece of the payload k1_pay1 over the five input blocks
   (out1_5), the body's triple (sound_kernel1), the pipeline's proof data (dat1) and its body obligation
   (body_obligation1). Inputs 0,1 move with the grid point (index map (i,0)); inputs 2,3,4 have a constant index map and
   are fetched at the first point only: their buffers still hold their one block at every later point. -/
import proofs.«154759_j4612794876151_1_alg».proof.Proof.Gen.KernelIdeal.Launch
import proofs.«154759_j4612794876151_1_alg».proof.Proof.Gen.KernelIdeal.Skeleton
import proofs.«154759_j4612794876151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is V's (hA) and whose body leaves the block in place (hafter): unfetched, the index has not moved; the
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2, whose index map is constant: fetched at the first point only, its buffer holds the one
    block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant index map). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (constant index map). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take their buffer's whole rectangle -/

abbrev r1_0 : Rect S8192x128 := Rect.unit (s := S8192x128) ![0, 0] S8192x128.size inb_S8192x128_S8192x128_0_0
abbrev r1_1 : Rect S1x128 := Rect.unit (s := S1x128) ![0, 0] S1x128.size inb_S1x128_S1x128_0_0
abbrev r1_2 : Rect S1x1 := Rect.unit (s := S1x1) ![0, 0] S1x1.size inb_S1x1_S1x1_0_0
abbrev r1_3 : Rect S8192x1 := Rect.unit (s := S8192x1) ![0, 0] S8192x1.size inb_S8192x1_S8192x1_0_0

/-! ## What the body leaves in the output window's buffer -/

/-- Window 5's staging buffer after the body, from the input windows' blocks: its one store as a piece. -/
def out1_5 (x0 : Vec F S8192x128 .f32) (x1 : Vec F S8192x128 .f32) (x2 : Vec F S1x128 .f32) (x3 : Vec F S1x128 .f32) (x4 : Vec F S1x1 .f32) :
    Vec F S8192x1 .f32 :=
  View.canon [⟨r1_3, k1_pay1 (View.ld x0 r1_0) (View.ld x1 r1_0) (View.ld x2 r1_1) (View.ld x3 r1_1) (View.ld x4 r1_2)⟩]

/-- The store tiles the buffer (checked by evaluation), so it covers it. -/
theorem cover1_5 (p0 : Vec F S8192x1 .f32) (y : S8192x1.Idx) :
    ∃ pc ∈ ([⟨r1_3, p0⟩] : List (View.Piece (Elt F) S8192x1 .f32)), y ∈ pc.1.set :=
  View.cover_of_tiled [⟨r1_3, p0⟩] S8192x1.size (by rfl) y

/-! ## The body's triple -/

set_option maxHeartbeats 1000000 in
/-- The kernel body on whole staging memrefs, the inputs' at read contents xW and the output's at anything, runs to the
    continuation holding the inputs' as they were and the output's at out1_5 of the inputs'. -/
theorem sound_kernel1 (c : Dev nD) (E : Set ℕ) (i : grid1.Coords)
    (arg0 : Memref sig .tc .vmem S8192x128 .f32) (harg0 : arg0.IsWhole) (arg1 : Memref sig .tc .vmem S8192x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x1 .f32) (harg4 : arg4.IsWhole) (arg5 : Memref sig .tc .vmem S8192x1 .f32) (harg5 : arg5.IsWhole)
    (x0 : Vec F S8192x128 .f32) (x1 : Vec F S8192x128 .f32) (x2 : Vec F S1x128 .f32) (x3 : Vec F S1x128 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__sage2_kernel i arg0 harg0 arg1 harg1 arg2 harg2 arg3 harg3 arg4 harg4 arg5 harg5) K := by
  simp only [cc1__sage2_kernel_eq_skeleton]; unfold cc1__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them (V); after the body at point t each
    input's buffer at its block and the output's at out1_5 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t (the precondition of the body obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (before1_W), so sound_kernel1 applies; the invariant
    and the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
/- REGION 2 of @main (pallas_call 2, `cc2__mm_kernel`, pipeline 2), at a parameter `V` — the TensorCore's buffer
   contents when the region is entered: what the three runs of its body share. Each window's block at a point
   (`iblk2`) and the input windows' buffers at their blocks; the body's two branch conditions in closed form over the
   grid (`hcond2_0`: the accumulator is reset where the inner coordinate is 0; `hcond2_1`: the output is written where
   it is 7); where the output window is idle; the staging and scratch memrefs; the region invariant with the scratch
   accumulator owned as a memref. Generic in the float model. -/
import proofs.«154759_j4612794876151_1_alg».proof.Proof.Gen.KernelIdeal.Launch
import proofs.«154759_j4612794876151_1_alg».proof.Proof.Gen.KernelIdeal.Skeleton
import proofs.«154759_j4612794876151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the accumulator's reset), from the grid coordinates: the inner
    coordinate compared with 0. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (the output's store), from the grid coordinates: the inner
    coordinate compared with 7. -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- At the points of case A output 3 is idle: the case stores nothing into it. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B output 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C output 3 is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of output window 3, through which its contents are stated (the choice does not matter). -/
abbrev VO2_3 : View sig .tc .vmem S64x2048 .f32 := (Memref.whole cc2_stg3_0 : Memref sig .tc .vmem S64x2048 .f32).view
/-- Each window's current staging memref at point `t`, spelled as the pipeline passes it, and its wholeness. -/
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S64x2048 .f32 := Memref.whole cc2_scratch0
/-- The scratch accumulator the kernel carries between points, as a view: what it holds is stated through it. -/
abbrev VS2_0 : View sig .tc .vmem S64x2048 .f32 := scM2_0.view

/-! ## The region invariant with the scratch accumulator as a memref -/

/-- The core's scoped buffers that are no staging buffer of this call, split at the call's own scratch accumulator:
    its points-to at some contents, and every other scoped buffer (the other calls' staging buffers) left unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scoped buffers of the core other than this call's staging buffers and scratch accumulator, each at some
    contents: carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The region's invariant with the scratch accumulator as a memref owned at some contents: what the body
    obligation hands the run and takes back. -/
theorem PhiA2_eq (c : Dev nD) :
    (Pipeline.ΦA spec2 c : sProp 𝕄)
      = iprop(iprop(iprop((∃ d, owns (c : Thread nD τ) scM2_0 fullShare d)) ∗ others2 c) ∗ (∃ r, prngReg c r)) := by
  unfold Pipeline.ΦA; rw [scopedRest2_split]; simp only [scM2_0, owns_whole]; try rfl

end Cert.KernelIdeal.Hand

end
-- ==== Proof.KI.R2RunA.lean ====
/- REGION 2, the whole-body run of `cc2__mm_kernel` IN CASE A (first `scf.if` taken, second not: the points where the
   inner coordinate is 0): the body's triple, with the pieces each buffer ends with as the witness. Generic in the
   float model. -/
import proofs.«154759_j4612794876151_1_alg».proof.Proof.KI.R2Runs

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case A, WITH the proof that on whole staging memrefs — the
    inputs' at their contents, the output's (no store: idle at these points) at contents `xi3` handed back untouched,
    the scratch accumulator at anything — the body runs to the continuation holding the inputs' as they were, the
    output's as it was, and the scratch accumulator with its pieces written (`LS0`: the reset, then the first product
    added). -/
noncomputable def kernelRun2_A (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2RunB.lean ====
/- REGION 2, the whole-body run of `cc2__mm_kernel` IN CASE B (neither `scf.if` taken: the points where the inner
   coordinate is 1 to 6): the body's triple, with the pieces each buffer ends with as the witness. Generic in the float
   model. -/
import proofs.«154759_j4612794876151_1_alg».proof.Proof.KI.R2Runs

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case B, WITH the proof that on whole staging memrefs — the
    inputs' at their contents, the output's (no store: idle at these points) at contents `xi3` handed back untouched,
    the scratch accumulator at what the point before left (`xs0`) — the body runs to the continuation holding the
    inputs' as they were, the output's as it was, and the scratch accumulator with its pieces written (`LS0`: this
    point's product added). -/
noncomputable def kernelRun2_B (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2RunC.lean ====
/- REGION 2, the whole-body run of `cc2__mm_kernel` IN CASE C (first `scf.if` not taken, second taken: the points
   where the inner coordinate is 7): the body's triple, with the pieces each buffer ends with as the witness. Generic
   in the float model. -/
import proofs.«154759_j4612794876151_1_alg».proof.Proof.KI.R2Runs

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), in case C, WITH the proof that on whole staging memrefs — the
    inputs' at their contents, the output's at anything, the scratch accumulator at what the point before left
    (`xs0`) — the body runs to the continuation holding the inputs' as they were, the output's with its pieces written
    (`L3`: the accumulated sum with the bias row added), and the scratch accumulator with its pieces written (`LS0`:
    this point's product added). -/
noncomputable def kernelRun2_C (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) :
    Σ' (L3 : List (View.Piece (Elt F) S64x2048 .f32)), { LS0 : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R2.lean ====
/- REGION 2 of @main (pallas_call 2, `cc2__mm_kernel`, pipeline 2), at a parameter `V` — the TensorCore's buffer
   contents when the region is entered: what the output window's buffer and the scratch accumulator hold per case of the
   body's two conditionals (the runs' pieces read back, with their covers) and point by point (`outsAt2`: the accumulator
   reset where the inner coordinate is 0, one product added at every point, the output written with the bias row added
   where it is 7); the region invariant carrying the accumulator's contents between points (`PhiS2`); the pipeline's
   proof data (`dat2`), the body obligation at every point (`body_obligation2`), and the invariant's two ends
   (`hin2`, `hout2`). Generic in the float model. -/
import proofs.«154759_j4612794876151_1_alg».proof.Proof.KI.R2RunA
import proofs.«154759_j4612794876151_1_alg».proof.Proof.KI.R2RunB
import proofs.«154759_j4612794876151_1_alg».proof.Proof.KI.R2RunC

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the scratch accumulator -/

/-- Case A stores nothing into output 3 (the window is idle at its points and not written back there): no pieces — a
    placeholder (junk read back) that nothing consults, since at these points the window is neither written back nor
    read at the next point. -/
def out2_A_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) : Vec F S64x2048 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the scratch accumulator, which the kernel carries between points, cover it (whole-block stores). -/
theorem scover2_A_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) (y : S64x2048.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S64x2048.size (by sl_kernel_rfl) y

/-- What case A leaves in the scratch accumulator: its pieces read back over junk. -/
def sout2_A_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) : Vec F S64x2048 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into output 3 (the window is idle at its points and not written back there): no pieces — a
    placeholder (junk read back) that nothing consults, since at these points the window is neither written back nor
    read at the next point. -/
def out2_B_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) : Vec F S64x2048 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the scratch accumulator, which the kernel carries between points, cover it (whole-block stores). -/
theorem scover2_B_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) (y : S64x2048.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S64x2048.size (by sl_kernel_rfl) y

/-- What case B leaves in the scratch accumulator: its pieces read back over junk. -/
def sout2_B_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) : Vec F S64x2048 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for output 3 tile its block (one store of the whole block), so they cover it. -/
theorem cover2_C_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) (y : S64x2048.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S64x2048.size (by sl_kernel_rfl) y

/-- What case C leaves in output 3's staging buffer: its pieces read back over junk. -/
def out2_C_3 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) : Vec F S64x2048 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the scratch accumulator, which the kernel carries between points, cover it (whole-block stores). -/
theorem scover2_C_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) (y : S64x2048.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S64x2048.size (by sl_kernel_rfl) y

/-- What case C leaves in the scratch accumulator: its pieces read back over junk. -/
def sout2_C_0 (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) : Vec F S64x2048 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output and the accumulator hold after each point -/

/-- THE ACCUMULATION. What output window 3's staging buffer and the scratch accumulator hold after the body at position
    `n` (a pair: the output, then the scratch): the case the closed forms select at `n`, run at the point's memrefs and
    input blocks, the scratch accumulator at what this leaves at `n - 1` (cases B and C; case A resets it). An assignment
    of the conditions no point meets is no case. -/
def outsAt2 (c : Dev nD) : (n : ℕ) → n < cfg2.N → Vec F S64x2048 .f32 × Vec F S64x2048 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by have hN : n + 1 < 16 := lt_of_lt_of_eq hn (show cfg2.N = 16 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the kernel CARRYING its scratch accumulator between points: before the
    first point the class's (every scoped buffer that is no staging buffer of the call at anything); afterwards the same
    with the accumulator at what the point before left in it (`outsAt2`'s second component), the other scoped buffers
    unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ others2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ others2 c) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `outsAt2`'s first component; the invariant `PhiS2` (the class's
    before the first point, then the scoped rest with the scratch accumulator at `outsAt2`'s second component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks (`before2_W`); the closed forms say which case the point
    is in; so that case's run applies; the invariant hands the body the scratch accumulator at what the point before left
    (at anything at the first point), the other scoped buffers and the generator register pass through, and the
    accumulator is taken back at this point's contents (its pieces cover it); the output window, idle in cases A and B,
    is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI.Run.lean ====
/-
  The run of the whole program: the buffers' contents at each boundary between a stretch of host operations and a kernel
  region, folded from the launch memory; each region entered from the contents the stretch before it leaves and left with
  its output array at what its write-backs leave; and, at the end, every unscoped buffer at the last boundary's contents.
  Region 2 carries its accumulator between grid points, so its invariant gives the scoped rest back only after the last point.
-/
import proofs.«154759_j4612794876151_1_alg».proof.Proof.KI.R0
import proofs.«154759_j4612794876151_1_alg».proof.Proof.KI.R1
import proofs.«154759_j4612794876151_1_alg».proof.Proof.KI.R2
import proofs.«154759_j4612794876151_1_alg».proof.Proof.Gen.KernelIdeal.Launch
import proofs.«154759_j4612794876151_1_alg».proof.Proof.Gen.KernelIdeal.Points
import proofs.«154759_j4612794876151_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data of every region, and what rides beside the buffers -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the invariant and comes out; the invariant is
    the class's before the first point and gives it back after the last (the carried accumulator's contents forgotten). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have htake : (Pipeline.ΦA spec2 c : sProp 𝕄) ⊢ (pdats m ρ 2 c).Φ 0 := hin2 (V5 m ρ) c
    unfold Pipeline.ΦA at htake
    iintro ⟨Hp, -, Hr⟩
    iapply htake
    isplitl [Hr]; · iexact Hr
    iexact Hp
  hout c := by
    rw [Pipeline.ownSems0_none]
    have hgive : (pdats m ρ 2 c).Φ (Fin.last _) ⊢ (Pipeline.ΦA spec2 c : sProp 𝕄) := hout2 (V5 m ρ) c
    unfold Pipeline.ΦA at hgive
    iintro H0
    ihave H := hgive $$ H0
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates, nothing
    faulting, and in every final state each unscoped buffer holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## What no stretch and no region changes -/

section Kept
variable (c : Dev nD)

theorem W1_of (r : Ref sig .tc) (h : r ∉ hostOps0_W) : W1 m ρ c (Proc.devRef .tc r) = W0 m ρ c (Proc.devRef .tc r) :=
  StableHlo.after_of_writes_sub hostOps0 _ hostOps0_writes h
theorem W3_of (r : Ref sig .tc) (h : r ∉ hostOps1_W) : W3 m ρ c (Proc.devRef .tc r) = W2 m ρ c (Proc.devRef .tc r) :=
  StableHlo.after_of_writes_sub hostOps1 _ hostOps1_writes h
theorem W5_of (r : Ref sig .tc) (h : r ∉ hostOps2_W) : W5 m ρ c (Proc.devRef .tc r) = W4 m ρ c (Proc.devRef .tc r) :=
  StableHlo.after_of_writes_sub hostOps2 _ hostOps2_writes h

/-- Region 0 changes only its output array: an input array ends as entered, any other buffer is bypassed. -/
theorem W2_keep (r : Ref sig .tc) (h : r ≠ main_v18) : W2 m ρ c (Proc.devRef .tc r) = W1 m ρ c (Proc.devRef .tc r) := by
  by_cases hex : ∃ w, Pipeline.arrRef spec0 w = r
  · obtain ⟨w, rfl⟩ := hex
    rw [W2_arr]
    fin_cases w <;> first
      | exact absurd rfl h
      | exact ((dat0 (V1 m ρ) c).arrAt_in _ rfl _).trans (A_eq0 (V1 m ρ) c _)
  · exact W2_of_ne m ρ c r fun w e => hex ⟨w, e⟩
/-- Region 1 changes only its output array. -/
theorem W4_keep (r : Ref sig .tc) (h : r ≠ main_v40) : W4 m ρ c (Proc.devRef .tc r) = W3 m ρ c (Proc.devRef .tc r) := by
  by_cases hex : ∃ w, Pipeline.arrRef spec1 w = r
  · obtain ⟨w, rfl⟩ := hex
    rw [W4_arr]
    fin_cases w <;> first
      | exact absurd rfl h
      | exact ((dat1 (V3 m ρ) c).arrAt_in _ rfl _).trans (A_eq1 (V3 m ρ) c _)
  · exact W4_of_ne m ρ c r fun w e => hex ⟨w, e⟩
/-- Region 2 changes only its output array. -/
theorem W6_keep (r : Ref sig .tc) (h : r ≠ main_v43) : W6 m ρ c (Proc.devRef .tc r) = W5 m ρ c (Proc.devRef .tc r) := by
  by_cases hex : ∃ w, Pipeline.arrRef spec2 w = r
  · obtain ⟨w, rfl⟩ := hex
    rw [W6_arr]
    fin_cases w <;> first
      | exact absurd rfl h
      | exact ((dat2 (V5 m ρ) c).arrAt_in _ rfl _).trans (A_eq2 (V5 m ρ) c _)
  · exact W6_of_ne m ρ c r fun w e => hex ⟨w, e⟩

/-- A buffer that no host operation writes and that is no region's output ends as launched. -/
theorem W6_launch (r : Ref sig .tc) (h0 : r ∉ hostOps0_W) (h1 : r ∉ hostOps1_W) (h2 : r ∉ hostOps2_W)
    (h18 : r ≠ main_v18) (h40 : r ≠ main_v40) (h43 : r ≠ main_v43) :
    W6 m ρ c (Proc.devRef .tc r) = m ((c : Thread nD τ).loc r) :=
  (W6_keep m ρ c r h43).trans <| (W5_of m ρ c r h2).trans <| (W4_keep m ρ c r h40).trans <| (W3_of m ρ c r h1).trans <|
    (W2_keep m ρ c r h18).trans <| (W1_of m ρ c r h0).trans rfl

/-- Up to region 0's exit, up to region 1's exit, and up to region 2's entry: a buffer not yet written holds its launch contents. -/
theorem W1_launch (r : Ref sig .tc) (h0 : r ∉ hostOps0_W) : W1 m ρ c (Proc.devRef .tc r) = m ((c : Thread nD τ).loc r) :=
  (W1_of m ρ c r h0).trans rfl
theorem W2_launch (r : Ref sig .tc) (h0 : r ∉ hostOps0_W) (h18 : r ≠ main_v18) :
    W2 m ρ c (Proc.devRef .tc r) = m ((c : Thread nD τ).loc r) :=
  (W2_keep m ρ c r h18).trans (W1_launch m ρ c r h0)
theorem W4_launch (r : Ref sig .tc) (h0 : r ∉ hostOps0_W) (h1 : r ∉ hostOps1_W) (h18 : r ≠ main_v18) (h40 : r ≠ main_v40) :
    W4 m ρ c (Proc.devRef .tc r) = m ((c : Thread nD τ).loc r) :=
  (W4_keep m ρ c r h40).trans <| (W3_of m ρ c r h1).trans (W2_launch m ρ c r h0 h18)
theorem W5_launch (r : Ref sig .tc) (h0 : r ∉ hostOps0_W) (h1 : r ∉ hostOps1_W) (h2 : r ∉ hostOps2_W) (h18 : r ≠ main_v18) (h40 : r ≠ main_v40) :
    W5 m ρ c (Proc.devRef .tc r) = m ((c : Thread nD τ).loc r) :=
  (W5_of m ρ c r h2).trans (W4_launch m ρ c r h0 h1 h18 h40)

end Kept

/-- THE FRAME: every weakly fair execution terminates, nothing faulting, and every argument array ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide)),
    (h c _ (mem_uc main_arg9 (by decide))).trans (W6_launch m ρ c main_arg9 (by decide) (by decide) (by decide) (by decide) (by decide) (by decide)),
    (h c _ (mem_uc main_arg10 (by decide))).trans (W6_launch m ρ c main_arg10 (by decide) (by decide) (by decide) (by decide) (by decide) (by decide))⟩) (run_all m ρ)

/-- THE RUN WITH ITS RESULTS: as `run_all`, read at the two result arrays and at the argument arrays. -/
theorem run_results : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v41 (by decide)), h c _ (mem_uc main_v43 (by decide)),
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide)),
    (h c _ (mem_uc main_arg9 (by decide))).trans (W6_launch m ρ c main_arg9 (by decide) (by decide) (by decide) (by decide) (by decide) (by decide)),
    (h c _ (mem_uc main_arg10 (by decide))).trans (W6_launch m ρ c main_arg10 (by decide) (by decide) (by decide) (by decide) (by decide) (by decide))⟩) (run_all m ρ)

end Cert.KernelIdeal.Hand

end
-- ==== Proof.Spec.lean ====
/-
  What the three fused kernels compute, as functions of whole arrays, index by index, on the extended reals.
  Layer 1: h(i, j) = tanh (x(i) · ws(j) + hn(i) · wn(j) + b(j)).
  Layer 2: o(i) = Σ_k h(i, k) · ws(k) + Σ_k hn(i, k) · wn(k) + b.
  Tail:    y(p, q) = Σ_k tanh (x(p, k)) · w(k, q) + b(q).
  The weights of layers 1 and 2 and the biases are rows ([1, n] arrays); no program is imported here.
-/
import Idealize.ShloMosaic.PureOps.Ideal
import Idealize.ShloMosaic.Lib.ValueIdx

noncomputable section

namespace Cert.Spec

open Idealize.ShloMosaic Idealize.ShloMosaic.ValueIdx

/-- Layer 1 at row `i`, feature `j`: `tanh (x i · ws j + hn i · wn j + b j)`. -/
def sage1 (x hn : FVec Ideal ⟨2, ![262144, 1]⟩ .f32) (ws wn b : FVec Ideal ⟨2, ![1, 128]⟩ .f32) :
    FVec Ideal ⟨2, ![262144, 128]⟩ .f32 :=
  fun j => Ideal.tanh (x (ix2 (j 0) 0) * ws (ix2 0 (j 1)) + hn (ix2 (j 0) 0) * wn (ix2 0 (j 1)) + b (ix2 0 (j 1)))

/-- Layer 2 at row `i`: the two inner products over the 128 features, plus the bias. -/
def sage2 (h hn : FVec Ideal ⟨2, ![262144, 128]⟩ .f32) (ws wn : FVec Ideal ⟨2, ![1, 128]⟩ .f32)
    (b : FVec Ideal ⟨2, ![1, 1]⟩ .f32) : FVec Ideal ⟨2, ![262144, 1]⟩ .f32 :=
  fun j => (∑ k : Fin 128, h (ix2 (j 0) k) * ws (ix2 0 k)) + (∑ k : Fin 128, hn (ix2 (j 0) k) * wn (ix2 0 k)) + b (ix2 0 0)

/-- The tail at `(p, q)`: the inner product of `tanh` of row `p` with column `q` of the weights, plus the bias. -/
def tail (x : FVec Ideal ⟨2, ![64, 4096]⟩ .f32) (w : FVec Ideal ⟨2, ![4096, 4096]⟩ .f32)
    (b : FVec Ideal ⟨2, ![1, 4096]⟩ .f32) : FVec Ideal ⟨2, ![64, 4096]⟩ .f32 :=
  fun j => (∑ k : Fin 4096, Ideal.tanh (x (ix2 (j 0) k)) * w (ix2 k (j 1))) + b (ix2 0 (j 1))

end Cert.Spec

end
-- ==== Proof.KI.R0Val.lean ====
/- REGION 0's VALUE at the ideal model: the array pallas_call 0 leaves in its output window (`main_v18`), as ONE
   whole-array function of the arrays the region finds on entry — layer 1 of `Cert.Spec`,
   `tanh (x i · ws j + hn i · wn j + b j)` at row `i`, feature `j`. The payload read at an index (`pay0_apply`: the two
   columns broadcast across the features, the three rows broadcast down the rows); the printed index maps decided over
   the 32 grid points (`idx_facts0`: the two column windows and the output move with the point, the three row windows
   stay); what a point writes back is its block of the whole-array function (`point0`, `flushed5_eq`); the output's
   blocks cover the array, row `r` in block `r / 8192` (`cover5`); hence the final array (`final0`). -/
import proofs.«154759_j4612794876151_1_alg».proof.Proof.KI.R0
import proofs.«154759_j4612794876151_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The windows' arrays, in operand order -/

theorem arrRef0_0 : Pipeline.arrRef spec0 0 = main_arg0 := rfl
theorem arrRef0_1 : Pipeline.arrRef spec0 1 = main_v16 := rfl
theorem arrRef0_2 : Pipeline.arrRef spec0 2 = main_arg3 := rfl
theorem arrRef0_3 : Pipeline.arrRef spec0 3 = main_arg4 := rfl
theorem arrRef0_4 : Pipeline.arrRef spec0 4 = main_v17 := rfl
theorem arrRef0_5 : Pipeline.arrRef spec0 5 = main_v18 := rfl

/-! ## The payload at an index -/

/-- A column broadcast across columns, read at (p, q), is the column's entry p. -/
theorem col_bcast_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at row `p`, feature `q` of the block: the layer's formula of the loaded blocks' entries. -/
theorem pay0_apply (x0 x1 : FVec Ideal S8192x1 .f32) (x2 x3 x4 : FVec Ideal S1x128 .f32) (p : Fin 8192) (q : Fin 128) :
    k0_pay1 (F := Ideal) x0 x1 x2 x3 x4 (ix2 p q)
      = Ideal.tanh (x0 (ix2 p 0) * x2 (ix2 0 q) + x1 (ix2 p 0) * x3 (ix2 0 q) + x4 (ix2 0 q)) := by
  unfold k0_pay1
  simp only [shapeCast_self]
  show Ideal.tanh (_ * _ + _ * _ + _) = _
  rw [col_bcast_apply, col_bcast_apply, broadcastTo_1b_ab_apply, broadcastTo_1b_ab_apply, broadcastTo_1b_ab_apply]

/-! ## From blocks to the array -/

-- the TensorCore's buffer contents when the region is entered
variable (V : (c : Dev nD) → (b : Ref sig .tc) → Buf (Elt Ideal) ((c : Thread nD τ).loc b))

/-- The whole-rectangle accesses start at the origin. -/
theorem hz0 : (![0, 0] : Fin 2 → Nat) = fun _ => 0 := funext fun a => by fin_cases a <;> rfl

/-- The printed index maps, decided over the grid: the column windows and the output are at block `t` on axis 0, the
    row windows at block 0, and every window at block 0 on axis 1. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- At a point `t` and an index `j` of the output's block: the layer's formula of the input blocks' entries at
    `j`'s row and column is the whole-array formula at `j`'s place in the array (every block sits at its block
    index times its size; the row blocks move with the output's, the weight rows do not move). -/
theorem point0 (t : Fin cfg0.N) (j : S8192x128.Idx)
    (a0 a1 : FVec Ideal S262144x1 .f32) (a2 a3 a4 : FVec Ideal S1x128 .f32) :
    Ideal.tanh (a0 (((cfg0.win 0).blk t).view.emb (ix2 (j 0) (0 : Fin 1) : S8192x1.Idx)) * a2 (((cfg0.win 2).blk t).view.emb (ix2 (0 : Fin 1) (j 1) : S1x128.Idx))
      + a1 (((cfg0.win 1).blk t).view.emb (ix2 (j 0) (0 : Fin 1) : S8192x1.Idx)) * a3 (((cfg0.win 3).blk t).view.emb (ix2 (0 : Fin 1) (j 1) : S1x128.Idx))
      + a4 (((cfg0.win 4).blk t).view.emb (ix2 (0 : Fin 1) (j 1) : S1x128.Idx)))
    = Cert.Spec.sage1 a0 a1 a2 a3 a4 (((cfg0.win 5).blk t).view.emb j) := by
  obtain ⟨e00, e01, e10, e11, e20, e21, e30, e31, e40, e41, e50, e51⟩ := idx_facts0 t
  have h0 : ((cfg0.win 0).blk t).view.emb (ix2 (j 0) (0 : Fin 1) : S8192x1.Idx) = (ix2 ((((cfg0.win 5).blk t).view.emb j) 0) (0 : Fin 1) : S262144x1.Idx) := by
    funext a; apply Fin.ext
    match a with
    | ⟨0, _⟩ => show win0_0.index t (0 : Fin 2) * 8192 + 1 * (j 0).val = win0_5.index t (0 : Fin 2) * 8192 + 1 * (j 0).val; omega
    | ⟨1, _⟩ => show win0_0.index t (1 : Fin 2) * 1 + 1 * 0 = 0; omega
  have h1 : ((cfg0.win 1).blk t).view.emb (ix2 (j 0) (0 : Fin 1) : S8192x1.Idx) = (ix2 ((((cfg0.win 5).blk t).view.emb j) 0) (0 : Fin 1) : S262144x1.Idx) := by
    funext a; apply Fin.ext
    match a with
    | ⟨0, _⟩ => show win0_1.index t (0 : Fin 2) * 8192 + 1 * (j 0).val = win0_5.index t (0 : Fin 2) * 8192 + 1 * (j 0).val; omega
    | ⟨1, _⟩ => show win0_1.index t (1 : Fin 2) * 1 + 1 * 0 = 0; omega
  have h2 : ((cfg0.win 2).blk t).view.emb (ix2 (0 : Fin 1) (j 1) : S1x128.Idx) = (ix2 (0 : Fin 1) ((((cfg0.win 5).blk t).view.emb j) 1) : S1x128.Idx) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_5.index t (1 : Fin 2) * 128 + 1 * (j 1).val; omega
  have h3 : ((cfg0.win 3).blk t).view.emb (ix2 (0 : Fin 1) (j 1) : S1x128.Idx) = (ix2 (0 : Fin 1) ((((cfg0.win 5).blk t).view.emb j) 1) : S1x128.Idx) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  have h4 : ((cfg0.win 4).blk t).view.emb (ix2 (0 : Fin 1) (j 1) : S1x128.Idx) = (ix2 (0 : Fin 1) ((((cfg0.win 5).blk t).view.emb j) 1) : S1x128.Idx) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  rw [h0, h1, h2, h3, h4]
  rfl

/-- WHAT POINT `t` WRITES BACK is block `t` of layer 1 of the region-entry arrays. -/
theorem flushed5_eq (c : Dev nD) (t : Fin cfg0.N) :
    (dat0 (F := Ideal) V c).flushed 5 t = ((cfg0.win 5).blk t).view.read (Elt Ideal)
      (Cert.Spec.sage1 (V c main_arg0) (V c main_v16) (V c main_arg3) (V c main_arg4) (V c main_v17)) := by
  show (cfg0.win 5).cut (grid0.coords t) ((dat0 V c).after 5 t) = _
  rw [after0_5]
  unfold out0_5
  rw [View.canon_unit_zero hz0]
  simp only [View.ld_unit_zero (S := S8192x1) hz0, View.ld_unit_zero (S := S1x128) hz0]
  funext j
  have hp := pay0_apply (iblk0 V c 0 t) (iblk0 V c 1 t) (iblk0 V c 2 t) (iblk0 V c 3 t) (iblk0 V c 4 t) (j 0) (j 1)
  refine (congrArg _ (eq_ix2 j)).trans (hp.trans ?_)
  exact point0 t j (V c main_arg0) (V c main_v16) (V c main_arg3) (V c main_arg4) (V c main_v17)

/-- An index of the array is in point `t`'s block iff each coordinate is in the block's range on its axis. -/
theorem mem_blk5 (t : Fin cfg0.N) (i : S262144x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v18).slice (win0_5.rect t)).set ↔ _
  rw [View.set_slice_whole, Rect.mem_set_unit]
  exact Iff.rfl

/-- Every index of the array is in the block of the point its row falls in: row `r` is in block `r / 8192`. -/
theorem cover5 (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : (i 0).val / 8192 < cfg0.N := by
    show (i 0).val / 8192 < grid0.N
    rw [N_0]; omega
  refine ⟨⟨(i 0).val / 8192, hN⟩, flush0_5 _, ?_⟩
  rw [mem_blk5]
  obtain ⟨e00, e01, e10, e11, e20, e21, e30, e31, e40, e41, e50, e51⟩ := idx_facts0 ⟨(i 0).val / 8192, hN⟩
  have e50' : win0_5.index ⟨(i 0).val / 8192, hN⟩ (0 : Fin 2) = (i 0).val / 8192 := e50
  intro a
  match a with
  | ⟨0, _⟩ =>
    show win0_5.index ⟨(i 0).val / 8192, hN⟩ (0 : Fin 2) * 8192 ≤ (i 0).val ∧ (i 0).val < win0_5.index ⟨(i 0).val / 8192, hN⟩ (0 : Fin 2) * 8192 + 8192
    omega
  | ⟨1, _⟩ =>
    show win0_5.index ⟨(i 0).val / 8192, hN⟩ (1 : Fin 2) * 128 ≤ (i 1).val ∧ (i 1).val < win0_5.index ⟨(i 0).val / 8192, hN⟩ (1 : Fin 2) * 128 + 128
    omega

/-- THE ARRAY the region leaves in its output window: layer 1 of the region-entry arrays, index by index. -/
theorem final0 (c : Dev nD) : (dat0 (F := Ideal) V c).arrAt 5 cfg0.N
    = Cert.Spec.sage1 (V c main_arg0) (V c main_v16) (V c main_arg3) (V c main_arg4) (V c main_v17) :=
  (dat0 V c).arrAt_eq_of_cover 5 _ (fun t _ => flushed5_eq V c t) cover5

end Cert.KernelIdeal.Hand

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.KI.R1Val.lean ====
/- Region 1's value at the ideal values: the output array the region leaves, as ONE function of the arrays the region
   finds. The body's payload, read at a row, is the two inner products of the row with the two weight rows plus the
   bias (the casts onto the same shape are identities, a [1,128] row is repeated down the rows, a sum over axis 1 from
   the zero word is the row's sum, kept as a column). Point t of the 32 writes back rows 8192 t … 8192 t + 8191, its
   inputs 0 and 1 being the same rows of their arrays and inputs 2, 3, 4 their whole one-block arrays; the 32 blocks
   cover the 262144 rows, so the array ends holding the layer's value everywhere. -/
import proofs.«154759_j4612794876151_1_alg».proof.Proof.KI.R1
import proofs.«154759_j4612794876151_1_alg».proof.Proof.Spec
import proofs.«154759_j4612794876151_1_alg».proof.Proof.LibSliceSum
import proofs.«154759_j4612794876151_1_alg».proof.Proof.LibColumnCasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of every access of the body, as the constant function. -/
theorem hz1 : (![0, 0] : Fin 2 → Nat) = fun _ => 0 := funext fun a => by fin_cases a <;> rfl

/-! ## The payload, index by index -/

/-- The body's payload at row p: the casts onto the same shape are identities, the row [1,128] is repeated down the
    8192 rows, the sum over axis 1 from the zero word is the row's sum, kept as a column, and the [1,1] bias is repeated
    down the column. -/
theorem pay1_apply (x0 x1 : FVec Ideal ⟨2, ![8192, 128]⟩ .f32) (x2 x3 : FVec Ideal ⟨2, ![1, 128]⟩ .f32)
    (x4 : FVec Ideal ⟨2, ![1, 1]⟩ .f32) (p : Fin 8192) (u : Fin 1) :
    k1_pay1 x0 x1 x2 x3 x4 (ix2 p u)
      = (∑ k : Fin 128, x0 (ix2 p k) * x2 (ix2 0 k)) + (∑ k : Fin 128, x1 (ix2 p k) * x3 (ix2 0 k)) + x4 (ix2 0 0) := by
  unfold k1_pay1
  simp only [shapeCast_self]
  rw [addf_apply, addf_apply, Cert.LibColumnCasts.cast_column, Cert.LibColumnCasts.cast_column,
    Cert.LibSliceSum.rowSum_zero_apply, Cert.LibSliceSum.rowSum_zero_apply, broadcastTo_1b_ab_apply]
  simp only [mulf_apply, broadcastTo_1b_ab_apply]
  have hu : u = 0 := Subsingleton.elim _ _
  subst hu
  rfl

/-! ## The printed index maps, decided over the grid -/

/-- Inputs 0, 1 and the output move down the rows with the point; inputs 2, 3, 4 stay on their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks, index by index -/

/-- Row p of point t's block of input 0 is row 8192 t + p of its array. -/
theorem iblk1_0_apply (c : Dev nD) (t : Fin cfg1.N) (x : S8192x128.Idx) (k : S262144x128.Idx)
    (hk0 : (k 0).val = t.val * 8192 + (x 0).val) (hk1 : (k 1).val = (x 1).val) :
    (iblk1 V c 0 t : Vec Ideal S8192x128 .f32) x = (V c main_v18 : S262144x128.Idx → Elt Ideal .f32) k := by
  obtain ⟨e0, e1, -⟩ := idx_facts1 t
  unfold iblk1
  rw [View.read_apply]
  show V c main_v18 _ = V c main_v18 _
  congr 1
  funext a
  apply Fin.ext
  match a with
  | ⟨0, _⟩ => show win1_0.index t 0 * 8192 + 1 * (x 0).val = (k 0).val; rw [e0, hk0]; omega
  | ⟨1, _⟩ => show win1_0.index t 1 * 128 + 1 * (x 1).val = (k 1).val; rw [e1, hk1]; omega

/-- The same of input 1. -/
theorem iblk1_1_apply (c : Dev nD) (t : Fin cfg1.N) (x : S8192x128.Idx) (k : S262144x128.Idx)
    (hk0 : (k 0).val = t.val * 8192 + (x 0).val) (hk1 : (k 1).val = (x 1).val) :
    (iblk1 V c 1 t : Vec Ideal S8192x128 .f32) x = (V c main_v36 : S262144x128.Idx → Elt Ideal .f32) k := by
  obtain ⟨-, -, e0, e1, -⟩ := idx_facts1 t
  unfold iblk1
  rw [View.read_apply]
  show V c main_v36 _ = V c main_v36 _
  congr 1
  funext a
  apply Fin.ext
  match a with
  | ⟨0, _⟩ => show win1_1.index t 0 * 8192 + 1 * (x 0).val = (k 0).val; rw [e0, hk0]; omega
  | ⟨1, _⟩ => show win1_1.index t 1 * 128 + 1 * (x 1).val = (k 1).val; rw [e1, hk1]; omega

/-- Input 2's one block is its whole array, at every point. -/
theorem iblk1_2_apply (c : Dev nD) (t : Fin cfg1.N) (x : S1x128.Idx) :
    (iblk1 V c 2 t : Vec Ideal S1x128 .f32) x = (V c main_v37 : S1x128.Idx → Elt Ideal .f32) x := by
  obtain ⟨-, -, -, -, e0, e1, -⟩ := idx_facts1 t
  unfold iblk1
  rw [View.read_apply]
  show V c main_v37 _ = V c main_v37 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The same of input 3. -/
theorem iblk1_3_apply (c : Dev nD) (t : Fin cfg1.N) (x : S1x128.Idx) :
    (iblk1 V c 3 t : Vec Ideal S1x128 .f32) x = (V c main_v38 : S1x128.Idx → Elt Ideal .f32) x := by
  obtain ⟨-, -, -, -, -, -, e0, e1, -⟩ := idx_facts1 t
  unfold iblk1
  rw [View.read_apply]
  show V c main_v38 _ = V c main_v38 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The same of input 4. -/
theorem iblk1_4_apply (c : Dev nD) (t : Fin cfg1.N) (x : S1x1.Idx) :
    (iblk1 V c 4 t : Vec Ideal S1x1 .f32) x = (V c main_v39 : S1x1.Idx → Elt Ideal .f32) x := by
  obtain ⟨-, -, -, -, -, -, -, -, e0, e1, -⟩ := idx_facts1 t
  unfold iblk1
  rw [View.read_apply]
  show V c main_v39 _ = V c main_v39 _
  congr 1
  funext a
  apply Fin.ext
  match a with
  | ⟨0, _⟩ => show win1_4.index t 0 * 1 + 1 * (x 0).val = (x 0).val; rw [e0]; omega
  | ⟨1, _⟩ => show win1_4.index t 1 * 1 + 1 * (x 1).val = (x 1).val; rw [e1]; omega

/-! ## What a point writes back -/

/-- The layer's value at a row of the array, over variables: the two inner products of the row with the weight rows,
    plus the bias. -/
theorem sage2_apply (h hn : FVec Ideal ⟨2, ![262144, 128]⟩ .f32) (ws wn : FVec Ideal ⟨2, ![1, 128]⟩ .f32)
    (b : FVec Ideal ⟨2, ![1, 1]⟩ .f32) (j : (⟨2, ![262144, 1]⟩ : Shape).Idx) :
    Cert.Spec.sage2 h hn ws wn b j
      = (∑ k : Fin 128, h (ix2 (j 0) k) * ws (ix2 0 k)) + (∑ k : Fin 128, hn (ix2 (j 0) k) * wn (ix2 0 k)) + b (ix2 0 0) := rfl

/-- The payload of point t's blocks at row p of the block is the layer's value at row 8192 t + p of the arrays. -/
theorem flushed1_at (c : Dev nD) (t : Fin cfg1.N) (j : S8192x1.Idx) (i : S262144x1.Idx)
    (hi : (i 0).val = t.val * 8192 + (j 0).val) :
    k1_pay1 (iblk1 V c 0 t) (iblk1 V c 1 t) (iblk1 V c 2 t) (iblk1 V c 3 t) (iblk1 V c 4 t) j
      = Cert.Spec.sage2 (V c main_v18) (V c main_v36) (V c main_v37) (V c main_v38) (V c main_v39) i := by
  rw [sage2_apply]
  refine (congrArg (k1_pay1 (iblk1 V c 0 t) (iblk1 V c 1 t) (iblk1 V c 2 t) (iblk1 V c 3 t) (iblk1 V c 4 t)) (eq_ix2 (n0 := 8192) (n1 := 1) j)).trans ?_
  refine (pay1_apply (iblk1 V c 0 t) (iblk1 V c 1 t) (iblk1 V c 2 t) (iblk1 V c 3 t) (iblk1 V c 4 t) (j 0) (j 1)).trans ?_
  congr 1
  · congr 1
    · refine Finset.sum_congr rfl fun k _ => ?_
      rw [iblk1_0_apply V c t (ix2 (j 0) k) (ix2 (i 0) k) hi rfl, iblk1_2_apply]
    · refine Finset.sum_congr rfl fun k _ => ?_
      rw [iblk1_1_apply V c t (ix2 (j 0) k) (ix2 (i 0) k) hi rfl, iblk1_3_apply]
  · rw [iblk1_4_apply]

/-- WHAT POINT t WRITES BACK is block t of the layer's value of the arrays as the region finds them. -/
theorem flushed1_eq (c : Dev nD) (t : Fin cfg1.N) :
    (dat1 (F := Ideal) V c).flushed 5 t = ((cfg1.win 5).blk t).view.read (Elt Ideal)
      (Cert.Spec.sage2 (V c main_v18) (V c main_v36) (V c main_v37) (V c main_v38) (V c main_v39)) := by
  show (cfg1.win 5).cut (grid1.coords t) ((dat1 V c).after 5 t) = _
  rw [after1_5]
  unfold out1_5
  rw [View.canon_unit_zero hz1]
  simp only [View.ld_unit_zero (S := S8192x128) hz1, View.ld_unit_zero (S := S1x128) hz1, View.ld_unit_zero (S := S1x1) hz1]
  obtain ⟨-, -, -, -, -, -, -, -, -, -, e0, e1⟩ := idx_facts1 t
  funext j
  exact flushed1_at V c t j (((cfg1.win 5).blk t).view.emb j) (by
    show win1_5.index t 0 * 8192 + 1 * (j 0).val = _
    rw [e0]; omega)

/-! ## The cover, and the array -/

/-- The point whose block holds row r of the output array: the quotient of r by 8192. -/
def pt1 (r : Nat) (h : r < 262144) : Fin cfg1.N := ⟨r / 8192, by rw [show cfg1.N = 32 from N_1]; omega⟩

/-- THE ARRAY after the region: the layer's value of the arrays as the region finds them, whole — every row of the
    output array is in the block of the point its quotient by 8192 names. -/
theorem final1 (c : Dev nD) : (dat1 (F := Ideal) V c).arrAt 5 cfg1.N
    = Cert.Spec.sage2 (V c main_v18) (V c main_v36) (V c main_v37) (V c main_v38) (V c main_v39) :=
  (dat1 (F := Ideal) V c).arrAt_eq_of_cover 5 _ (fun t _ => flushed1_eq V c t) fun i => by
    have h0 : (i 0 : Nat) < 262144 := (i 0).isLt
    have h1 : (i 1 : Nat) < 1 := (i 1).isLt
    refine ⟨pt1 (i 0 : Nat) h0, flush1_5 _, ?_⟩
    obtain ⟨-, -, -, -, -, -, -, -, -, -, e0, e1⟩ := idx_facts1 (pt1 (i 0 : Nat) h0)
    show i ∈ ((View.whole main_v40).slice (win1_5.rect (pt1 (i 0 : Nat) h0))).set
    rw [View.set_slice_whole, Rect.mem_set_unit]
    intro a
    match a with
    | ⟨0, _⟩ =>
      show win1_5.index (pt1 (i 0 : Nat) h0) 0 * 8192 ≤ (i 0 : Nat) ∧ (i 0 : Nat) < win1_5.index (pt1 (i 0 : Nat) h0) 0 * 8192 + 8192
      rw [e0]
      show (i 0 : Nat) / 8192 * 8192 ≤ (i 0 : Nat) ∧ (i 0 : Nat) < (i 0 : Nat) / 8192 * 8192 + 8192
      omega
    | ⟨1, _⟩ =>
      show win1_5.index (pt1 (i 0 : Nat) h0) 1 * 1 ≤ (i 1 : Nat) ∧ (i 1 : Nat) < win1_5.index (pt1 (i 0 : Nat) h0) 1 * 1 + 1
      rw [e1]; omega

end Cert.KernelIdeal.Hand

end
-- ==== Proof.KI.Host.lean ====
/- The HOST stretches of @main read back. Each stretch is a straight line of tensor operations; from an arbitrary
   valuation W of the TensorCore's buffers, what the stretch leaves in each buffer a later region reads is a pure
   function of the buffers the stretch reads, and every buffer the stretch does not write is left as W has it.
   The two long stretches compute the MEAN AGGREGATION over the edges (src, dst): negative source indices are
   wrapped by the node count, the rows at the sources are gathered, summed into the destinations, and divided by
   the destinations' in-degrees clamped below by one. Generic in the float model. -/
import proofs.«154759_j4612794876151_1_alg».proof.Proof.Gen.KernelIdeal.Launch
import proofs.«154759_j4612794876151_1_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-! ## The stretches' pure terms -/

/-- The mean aggregation of a one-column array: with s' the source indices wrapped into range, the sum over the
    edges of x at s' scattered to the destinations, over the in-degree (the sum of ones scattered to the
    destinations) clamped below by one. -/
def agg1 (x : (⟨S262144x1, .f32⟩ : BufTy).Contents (Elt F)) (src dst : (⟨S2097152, .i32⟩ : BufTy).Contents (Elt F)) :
    (⟨S262144x1, .f32⟩ : BufTy).Contents (Elt F) :=
  Host.divf
    (Host.scatterAdd scatter_S262144x1_S2097152x1_S2097152x1_1_0_0_1
      (broadcastInDim S262144x1 ![] bcast_S_S262144x1 (constant (F := F) S_ .f32 0x00000000#32))
      (broadcastInDim S2097152x1 ![0] bcast_S2097152_S2097152x1_0 dst)
      (Host.gather gather_S262144x1_S2097152x1_S2097152x1_1_0_n_n_0_1_11 x
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 262144#32)))
            src))))
    (maximumf
      (Host.scatterAdd scatter_S262144x1_S2097152x1_S2097152x1_1_0_0_1
        (broadcastInDim S262144x1 ![] bcast_S_S262144x1 (constant (F := F) S_ .f32 0x00000000#32))
        (broadcastInDim S2097152x1 ![0] bcast_S2097152_S2097152x1_0 dst)
        (broadcastInDim S2097152x1 ![] bcast_S_S2097152x1 (constant (F := F) S_ .f32 0x3F800000#32)))
      (broadcastInDim S262144x1 ![] bcast_S_S262144x1 (constant (F := F) S_ .f32 0x3F800000#32)))

/-- The mean aggregation of a 128-column array: the same sum of gathered rows, over the clamped in-degree
    broadcast along the columns. -/
def agg2 (h : (⟨S262144x128, .f32⟩ : BufTy).Contents (Elt F)) (src dst : (⟨S2097152, .i32⟩ : BufTy).Contents (Elt F)) :
    (⟨S262144x128, .f32⟩ : BufTy).Contents (Elt F) :=
  Host.divf
    (Host.scatterAdd scatter_S262144x128_S2097152x1_S2097152x128_1_0_0_1
      (broadcastInDim S262144x128 ![] bcast_S_S262144x128 (constant (F := F) S_ .f32 0x00000000#32))
      (broadcastInDim S2097152x1 ![0] bcast_S2097152_S2097152x1_0 dst)
      (Host.gather gather_S262144x128_S2097152x1_S2097152x128_1_0_n_n_0_1_1128 h
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 262144#32)))
            src))))
    (broadcastInDim S262144x128 ![0, 1] bcast_S262144x1_S262144x128_0_1
      (maximumf
        (Host.scatterAdd scatter_S262144x1_S2097152x1_S2097152x1_1_0_0_1
          (broadcastInDim S262144x1 ![] bcast_S_S262144x1 (constant (F := F) S_ .f32 0x00000000#32))
          (broadcastInDim S2097152x1 ![0] bcast_S2097152_S2097152x1_0 dst)
          (broadcastInDim S2097152x1 ![] bcast_S_S2097152x1 (constant (F := F) S_ .f32 0x3F800000#32)))
        (broadcastInDim S262144x1 ![] bcast_S_S262144x1 (constant (F := F) S_ .f32 0x3F800000#32))))

/-- A vector of 128 laid out as one row. -/
def row5 (x : (⟨S128, .f32⟩ : BufTy).Contents (Elt F)) : (⟨S1x128, .f32⟩ : BufTy).Contents (Elt F) :=
  shapeCast _ x shapeCasts_S128_S1x128
/-- A column of 128 laid out as one row. -/
def row6 (x : (⟨S128x1, .f32⟩ : BufTy).Contents (Elt F)) : (⟨S1x128, .f32⟩ : BufTy).Contents (Elt F) :=
  shapeCast _ x shapeCasts_S128x1_S1x128
/-- A column of 128 laid out as one row. -/
def row7 (x : (⟨S128x1, .f32⟩ : BufTy).Contents (Elt F)) : (⟨S1x128, .f32⟩ : BufTy).Contents (Elt F) :=
  shapeCast _ x shapeCasts_S128x1_S1x128
/-- A vector of one element laid out as a one-by-one array. -/
def row8 (x : (⟨S1, .f32⟩ : BufTy).Contents (Elt F)) : (⟨S1x1, .f32⟩ : BufTy).Contents (Elt F) :=
  shapeCast _ x shapeCasts_S1_S1x1
/-- A vector of 4096 laid out as one row. -/
def row10 (x : (⟨S4096, .f32⟩ : BufTy).Contents (Elt F)) : (⟨S1x4096, .f32⟩ : BufTy).Contents (Elt F) :=
  shapeCast _ x shapeCasts_S4096_S1x4096
/-- A column of 262144 laid out row-major as 64 rows of 4096. -/
def grid41 (y : (⟨S262144x1, .f32⟩ : BufTy).Contents (Elt F)) : (⟨S64x4096, .f32⟩ : BufTy).Contents (Elt F) :=
  shapeCast _ y shapeCasts_S262144x1_S64x4096

variable (W : Valuation τ sig (Elt F))

/-! ## The first stretch: the aggregation of the node features, and the bias as a row -/

set_option maxRecDepth 8192 in
set_option maxHeartbeats 4000000 in
theorem host0_v16 : StableHlo.after hostOps0 W (Proc.devRef .tc main_v16)
    = agg1 (W (Proc.devRef .tc main_arg0)) (W (Proc.devRef .tc main_arg1)) (W (Proc.devRef .tc main_arg2)) := by
  dsimp only [hostOps0]; after_results_simp <;> rfl

set_option maxRecDepth 8192 in
set_option maxHeartbeats 4000000 in
theorem host0_v17 : StableHlo.after hostOps0 W (Proc.devRef .tc main_v17) = row5 (W (Proc.devRef .tc main_arg5)) := by
  dsimp only [hostOps0]; after_results_simp <;> rfl

theorem host0_keep (r : Ref sig .tc) (h : r ∉ hostOps0_W) :
    StableHlo.after hostOps0 W (Proc.devRef .tc r) = W (Proc.devRef .tc r) :=
  StableHlo.after_of_writes_sub hostOps0 W hostOps0_writes h

/-! ## The second stretch: the aggregation of the first layer's output, and the second layer's weights as rows -/

set_option maxRecDepth 8192 in
set_option maxHeartbeats 4000000 in
theorem host1_v36 : StableHlo.after hostOps1 W (Proc.devRef .tc main_v36)
    = agg2 (W (Proc.devRef .tc main_v18)) (W (Proc.devRef .tc main_arg1)) (W (Proc.devRef .tc main_arg2)) := by
  dsimp only [hostOps1]; after_results_simp <;> rfl

set_option maxRecDepth 8192 in
set_option maxHeartbeats 4000000 in
theorem host1_v37 : StableHlo.after hostOps1 W (Proc.devRef .tc main_v37) = row6 (W (Proc.devRef .tc main_arg6)) := by
  dsimp only [hostOps1]; after_results_simp <;> rfl

set_option maxRecDepth 8192 in
set_option maxHeartbeats 4000000 in
theorem host1_v38 : StableHlo.after hostOps1 W (Proc.devRef .tc main_v38) = row7 (W (Proc.devRef .tc main_arg7)) := by
  dsimp only [hostOps1]; after_results_simp <;> rfl

set_option maxRecDepth 8192 in
set_option maxHeartbeats 4000000 in
theorem host1_v39 : StableHlo.after hostOps1 W (Proc.devRef .tc main_v39) = row8 (W (Proc.devRef .tc main_arg8)) := by
  dsimp only [hostOps1]; after_results_simp <;> rfl

theorem host1_keep (r : Ref sig .tc) (h : r ∉ hostOps1_W) :
    StableHlo.after hostOps1 W (Proc.devRef .tc r) = W (Proc.devRef .tc r) :=
  StableHlo.after_of_writes_sub hostOps1 W hostOps1_writes h

/-! ## The last stretch: two reshapes -/

theorem host2_v41 : StableHlo.after hostOps2 W (Proc.devRef .tc main_v41) = grid41 (W (Proc.devRef .tc main_v40)) := by
  dsimp only [hostOps2]; after_results; rfl

theorem host2_v42 : StableHlo.after hostOps2 W (Proc.devRef .tc main_v42) = row10 (W (Proc.devRef .tc main_arg10)) := by
  dsimp only [hostOps2]; after_results; rfl

theorem host2_keep (r : Ref sig .tc) (h : r ∉ hostOps2_W) :
    StableHlo.after hostOps2 W (Proc.devRef .tc r) = W (Proc.devRef .tc r) :=
  StableHlo.after_of_writes_sub hostOps2 W hostOps2_writes h

end Cert.KernelIdeal.Hand

end
-- ==== Proof.KI.Final.lean ====
/-
  The two results of the kernel program as functions of its arguments, at the ideal values: the contents at the last
  boundary read back through the host stretches (each a fixed function of what it reads) and through the three regions
  (each output array one whole-array function of the arrays the region is entered with).
-/
import proofs.«154759_j4612794876151_1_alg».proof.Proof.KI.Run
import proofs.«154759_j4612794876151_1_alg».proof.Proof.KI.R0Val
import proofs.«154759_j4612794876151_1_alg».proof.Proof.KI.R1Val
import proofs.«154759_j4612794876151_1_alg».proof.Proof.KI.Host
import proofs.«154759_j4612794876151_1_alg».proof.Proof.Spec

set_option maxRecDepth 16384

noncomputable section

namespace Cert.KernelIdeal.Hand

open Idealize.ShloMosaic Idealize.ShloMosaic.TcCoe
open Idealize.SL.Sem
open Cert.KernelIdeal Cert.KernelIdeal.Gen

/-- Layer 1 of the arguments: the features, their mean over the incoming edges, the two weight rows and the bias row. -/
def layer1 (a0 : (⟨S262144x1, .f32⟩ : BufTy).Contents (Elt Ideal)) (a1 a2 : (⟨S2097152, .i32⟩ : BufTy).Contents (Elt Ideal)) (a3 a4 : (⟨S1x128, .f32⟩ : BufTy).Contents (Elt Ideal)) (a5 : (⟨S128, .f32⟩ : BufTy).Contents (Elt Ideal)) :
    (⟨S262144x128, .f32⟩ : BufTy).Contents (Elt Ideal) :=
  Cert.Spec.sage1 a0 (agg1 a0 a1 a2) a3 a4 (row5 a5)

/-- Layer 2 of the arguments: layer 1's features, their mean over the incoming edges, the weight columns as rows, the bias. -/
def layer2 (a0 : (⟨S262144x1, .f32⟩ : BufTy).Contents (Elt Ideal)) (a1 a2 : (⟨S2097152, .i32⟩ : BufTy).Contents (Elt Ideal)) (a3 a4 : (⟨S1x128, .f32⟩ : BufTy).Contents (Elt Ideal)) (a5 : (⟨S128, .f32⟩ : BufTy).Contents (Elt Ideal))
    (a6 a7 : (⟨S128x1, .f32⟩ : BufTy).Contents (Elt Ideal)) (a8 : (⟨S1, .f32⟩ : BufTy).Contents (Elt Ideal)) : (⟨S262144x1, .f32⟩ : BufTy).Contents (Elt Ideal) :=
  Cert.Spec.sage2 (layer1 a0 a1 a2 a3 a4 a5) (agg2 (layer1 a0 a1 a2 a3 a4 a5) a1 a2) (row6 a6) (row7 a7) (row8 a8)

/-- The first result: layer 2's column laid out as 64 rows of 4096. -/
def out0 (a0 : (⟨S262144x1, .f32⟩ : BufTy).Contents (Elt Ideal)) (a1 a2 : (⟨S2097152, .i32⟩ : BufTy).Contents (Elt Ideal)) (a3 a4 : (⟨S1x128, .f32⟩ : BufTy).Contents (Elt Ideal)) (a5 : (⟨S128, .f32⟩ : BufTy).Contents (Elt Ideal))
    (a6 a7 : (⟨S128x1, .f32⟩ : BufTy).Contents (Elt Ideal)) (a8 : (⟨S1, .f32⟩ : BufTy).Contents (Elt Ideal)) : (⟨S64x4096, .f32⟩ : BufTy).Contents (Elt Ideal) :=
  grid41 (layer2 a0 a1 a2 a3 a4 a5 a6 a7 a8)

/-- The second result: the tail product of the first result with the square weights, plus the bias row. -/
def out1 (a0 : (⟨S262144x1, .f32⟩ : BufTy).Contents (Elt Ideal)) (a1 a2 : (⟨S2097152, .i32⟩ : BufTy).Contents (Elt Ideal)) (a3 a4 : (⟨S1x128, .f32⟩ : BufTy).Contents (Elt Ideal)) (a5 : (⟨S128, .f32⟩ : BufTy).Contents (Elt Ideal))
    (a6 a7 : (⟨S128x1, .f32⟩ : BufTy).Contents (Elt Ideal)) (a8 : (⟨S1, .f32⟩ : BufTy).Contents (Elt Ideal)) (a9 : (⟨S4096x4096, .f32⟩ : BufTy).Contents (Elt Ideal)) (a10 : (⟨S4096, .f32⟩ : BufTy).Contents (Elt Ideal)) : (⟨S64x4096, .f32⟩ : BufTy).Contents (Elt Ideal) :=
  Cert.Spec.tail (out0 a0 a1 a2 a3 a4 a5 a6 a7 a8) a9 (row10 a10)

variable (m : (ℓ : Loc nD τ sig) → Buf (Elt Ideal) ℓ) (ρ : Dev nD → PrngReg) (c : Dev nD)

/-- Before region 0 the aggregated features are the mean-aggregation of the launch contents. -/
theorem W1_v16 : V1 m ρ c main_v16 = agg1 (m ((c : Thread nD τ).loc main_arg0)) (m ((c : Thread nD τ).loc main_arg1)) (m ((c : Thread nD τ).loc main_arg2)) :=
  host0_v16 (W0 m ρ c)
theorem W1_v17 : V1 m ρ c main_v17 = row5 (m ((c : Thread nD τ).loc main_arg5)) :=
  host0_v17 (W0 m ρ c)

/-- After region 0 its output array is layer 1 of the arguments. -/
theorem W2_v18 : W2 m ρ c (Proc.devRef .tc main_v18) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((final0 (V1 m ρ) c).trans ?_)
  have e0 : V1 m ρ c main_arg0 = (m ((c : Thread nD τ).loc main_arg0)) := W1_launch m ρ c main_arg0 (by decide)
  have e3 : V1 m ρ c main_arg3 = (m ((c : Thread nD τ).loc main_arg3)) := W1_launch m ρ c main_arg3 (by decide)
  have e4 : V1 m ρ c main_arg4 = (m ((c : Thread nD τ).loc main_arg4)) := W1_launch m ρ c main_arg4 (by decide)
  rw [e0, e3, e4, W1_v16 m ρ c, W1_v17 m ρ c]
  rfl

/-- After region 1 its output array is layer 2 of the arguments. -/
theorem W4_v40 : W4 m ρ c (Proc.devRef .tc main_v40) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((final1 (V3 m ρ) c).trans ?_)
  have e18 : V3 m ρ c main_v18 = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (W3_of m ρ c main_v18 (by decide)).trans (W2_v18 m ρ c)
  have e36 : V3 m ρ c main_v36 = agg2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
    refine (host1_v36 (W2 m ρ c)).trans ?_
    rw [W2_v18 m ρ c, W2_launch m ρ c main_arg1 (by decide) (by decide), W2_launch m ρ c main_arg2 (by decide) (by decide)]
  have e37 : V3 m ρ c main_v37 = row6 (m ((c : Thread nD τ).loc main_arg6)) :=
    (host1_v37 (W2 m ρ c)).trans (congrArg row6 (W2_launch m ρ c main_arg6 (by decide) (by decide)))
  have e38 : V3 m ρ c main_v38 = row7 (m ((c : Thread nD τ).loc main_arg7)) :=
    (host1_v38 (W2 m ρ c)).trans (congrArg row7 (W2_launch m ρ c main_arg7 (by decide) (by decide)))
  have e39 : V3 m ρ c main_v39 = row8 (m ((c : Thread nD τ).loc main_arg8)) :=
    (host1_v39 (W2 m ρ c)).trans (congrArg row8 (W2_launch m ρ c main_arg8 (by decide) (by decide)))
  rw [e18, e36, e37, e38, e39]
  rfl

/-- Before region 2 the reshaped layer-2 column is the first result. -/
theorem W5_v41 : V5 m ρ c main_v41 = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host2_v41 (W4 m ρ c)).trans (congrArg grid41 (W4_v40 m ρ c))

/-- The first result at the end. -/
theorem W6_v41 : W6 m ρ c (Proc.devRef .tc main_v41) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_keep m ρ c main_v41 (by decide)).trans (W5_v41 m ρ c)

end Cert.KernelIdeal.Hand

end
-- ==== Proof.KI.R2ValLib.lean ====
/- REGION 2's value, the parts that need no run: the three payloads of `cc2__mm_kernel` read at an index on the
   extended reals (the zero block; the accumulator plus the block's share of the inner product; the accumulator plus the
   bias row), each window's block read at an index of its array (block coordinate = block index × block size +
   coordinate inside), and the regrouping of a sum over 4096 terms into 8 blocks of 512. Stated at the ideal values. -/
import proofs.«154759_j4612794876151_1_alg».proof.Proof.KI.R2Runs
import Idealize.ShloMosaic.Lib.ValueIdx
import Idealize.ShloMosaic.Lib.Pipeline.Value
import Idealize.ShloMosaic.PureOps.Ideal.Laws
set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! ## The payloads at an index -/

theorem k2_pay1_apply (p : Fin 64) (q : Fin 2048) : k2_pay1 (F := Ideal) (ix2 p q) = 0 := by
  unfold k2_pay1
  refine (congrFun (shapeCast_self _ _) _).trans ?_
  exact Ideal.ofBits_zero_f32

theorem k2_pay3_apply (v18 : Vec Ideal S64x2048 .f32) (v19 : Vec Ideal S1x2048 .f32) (p : Fin 64) (q : Fin 2048) :
    k2_pay3 v18 v19 (ix2 p q) = v18 (ix2 p q) + v19 (ix2 0 q) := by
  unfold k2_pay3
  refine congrArg (fun z => v18 (ix2 p q) + z) ?_
  refine (broadcastTo_apply _ broadcasts_S1x2048_S64x2048 (ix2 p q) (ix2 0 q) (fun a => ?_)).trans (congrFun (shapeCast_self v19 _) _)
  match a with
  | ⟨0, _⟩ => rfl
  | ⟨1, _⟩ => rfl

theorem k2_dot_lhs0 (i : S64x2048.Idx) (k : dot_S64x512_S512x2048_S64x2048_1_0_0_1_n_n.contr.Idx) :
    (dot_S64x512_S512x2048_S64x2048_1_0_0_1_n_n.lhsIdx i k 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem k2_dot_rhs1 (i : S64x2048.Idx) (k : dot_S64x512_S512x2048_S64x2048_1_0_0_1_n_n.contr.Idx) :
    (dot_S64x512_S512x2048_S64x2048_1_0_0_1_n_n.rhsIdx i k 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl

theorem k2_pay2_apply (v3 : Vec Ideal S64x512 .f32) (v7 : Vec Ideal S512x2048 .f32) (v9 : Vec Ideal S64x2048 .f32) (p : Fin 64) (q : Fin 2048) :
    k2_pay2 v3 v7 v9 (ix2 p q) = v9 (ix2 p q) + ∑ r : Fin 512, Ideal.tanh (v3 (ix2 p r)) * v7 (ix2 r q) := by
  unfold k2_pay2
  refine (congrFun (shapeCast_self _ _) _).trans ?_
  refine congrArg (fun z => v9 (ix2 p q) + z) ?_
  refine (Ideal.matmul_constant_zero_apply dot_S64x512_S512x2048_S64x2048_1_0_0_1_n_n none _ _ (ix2 p q)).trans ?_
  refine (Equiv.sum_comp (ValueIdx.contrEquiv1 dot_S64x512_S512x2048_S64x2048_1_0_0_1_n_n 512 rfl rfl).symm _).symm.trans ?_
  refine Finset.sum_congr rfl fun k _ => ?_
  have hk := ValueIdx.contrEquiv1_symm_val dot_S64x512_S512x2048_S64x2048_1_0_0_1_n_n 512 rfl rfl k
  have el : dot_S64x512_S512x2048_S64x2048_1_0_0_1_n_n.lhsIdx (ix2 p q) ((ValueIdx.contrEquiv1 dot_S64x512_S512x2048_S64x2048_1_0_0_1_n_n 512 rfl rfl).symm k) = ix2 p k := funext fun a => Fin.ext (by
    match a with
    | ⟨0, _⟩ => exact k2_dot_lhs0 _ _
    | ⟨1, _⟩ => exact (dot_S64x512_S512x2048_S64x2048_1_0_0_1_n_n.lhsIdx_val_of_single rfl _ _).trans hk)
  have er : dot_S64x512_S512x2048_S64x2048_1_0_0_1_n_n.rhsIdx (ix2 p q) ((ValueIdx.contrEquiv1 dot_S64x512_S512x2048_S64x2048_1_0_0_1_n_n 512 rfl rfl).symm k) = ix2 k q := funext fun a => Fin.ext (by
    match a with
    | ⟨0, _⟩ => exact (dot_S64x512_S512x2048_S64x2048_1_0_0_1_n_n.rhsIdx_val_of_single rfl _ _).trans hk
    | ⟨1, _⟩ => exact k2_dot_rhs1 _ _)
  rw [el, er]
  exact congrArg (fun z => Ideal.tanh (z (ix2 p k)) * v7 (ix2 k q)) (shapeCast_self v3 _)

/-! ## Positions in the arrays -/

/-- Row `r` of contraction block `i`: position `512 i + r` of the contracted axis. -/
abbrev kAt (i : ℕ) (r : Fin 512) : Fin 4096 := ⟨(512 * i + r.val) % 4096, Nat.mod_lt _ (by decide)⟩
/-- Column `q` of column block `j`: column `2048 j + q` of the result. -/
abbrev cAt (j : ℕ) (q : Fin 2048) : Fin 4096 := ⟨(2048 * j + q.val) % 4096, Nat.mod_lt _ (by decide)⟩

/-! ## The windows' blocks at an index -/

variable (V : (c : Dev nD) → (b : Ref sig .tc) → Buf (Elt Ideal) ((c : Thread nD τ).loc b))

theorem idx2_0 : ∀ t : Fin cfg2.N, win2_0.index t 0 = 0 ∧ win2_0.index t 1 = t.val % 8 :=
  (by decide +kernel : ∀ t : Fin grid2.N, win2_0.index t 0 = 0 ∧ win2_0.index t 1 = t.val % 8)
theorem idx2_1 : ∀ t : Fin cfg2.N, win2_1.index t 0 = t.val % 8 ∧ win2_1.index t 1 = t.val / 8 :=
  (by decide +kernel : ∀ t : Fin grid2.N, win2_1.index t 0 = t.val % 8 ∧ win2_1.index t 1 = t.val / 8)
theorem idx2_2 : ∀ t : Fin cfg2.N, win2_2.index t 0 = 0 ∧ win2_2.index t 1 = t.val / 8 :=
  (by decide +kernel : ∀ t : Fin grid2.N, win2_2.index t 0 = 0 ∧ win2_2.index t 1 = t.val / 8)
theorem idx2_3 : ∀ t : Fin cfg2.N, win2_3.index t 0 = 0 ∧ win2_3.index t 1 = t.val / 8 :=
  (by decide +kernel : ∀ t : Fin grid2.N, win2_3.index t 0 = 0 ∧ win2_3.index t 1 = t.val / 8)

theorem iblk2_0_apply (c : Dev nD) (t : Fin cfg2.N) (p : Fin 64) (r : Fin 512) :
    (iblk2 V c 0 t : Vec Ideal S64x512 .f32) (ix2 p r) = (V c main_v41 : Vec Ideal S64x4096 .f32) (ix2 p (kAt (t.val % 8) r)) := by
  unfold iblk2
  rw [View.read_apply]
  show (V c main_v41 : Vec Ideal S64x4096 .f32) _ = _
  refine congrArg (V c main_v41 : Vec Ideal S64x4096 .f32) (funext fun a => Fin.ext ?_)
  have ht : t.val < 16 := lt_of_lt_of_eq t.isLt (show cfg2.N = 16 from N_2)
  match a with
  | ⟨0, _⟩ =>
    show win2_0.index t 0 * 64 + 1 * p.val = p.val
    rw [(idx2_0 t).1]; omega
  | ⟨1, _⟩ =>
    show win2_0.index t 1 * 512 + 1 * r.val = (512 * (t.val % 8) + r.val) % 4096
    rw [(idx2_0 t).2]; omega

theorem iblk2_1_apply (c : Dev nD) (t : Fin cfg2.N) (r : Fin 512) (q : Fin 2048) :
    (iblk2 V c 1 t : Vec Ideal S512x2048 .f32) (ix2 r q) = (V c main_arg9 : Vec Ideal S4096x4096 .f32) (ix2 (kAt (t.val % 8) r) (cAt (t.val / 8) q)) := by
  unfold iblk2
  rw [View.read_apply]
  show (V c main_arg9 : Vec Ideal S4096x4096 .f32) _ = _
  refine congrArg (V c main_arg9 : Vec Ideal S4096x4096 .f32) (funext fun a => Fin.ext ?_)
  have ht : t.val < 16 := lt_of_lt_of_eq t.isLt (show cfg2.N = 16 from N_2)
  match a with
  | ⟨0, _⟩ =>
    show win2_1.index t 0 * 512 + 1 * r.val = (512 * (t.val % 8) + r.val) % 4096
    rw [(idx2_1 t).1]; omega
  | ⟨1, _⟩ =>
    show win2_1.index t 1 * 2048 + 1 * q.val = (2048 * (t.val / 8) + q.val) % 4096
    rw [(idx2_1 t).2]; omega

theorem iblk2_2_apply (c : Dev nD) (t : Fin cfg2.N) (q : Fin 2048) :
    (iblk2 V c 2 t : Vec Ideal S1x2048 .f32) (ix2 0 q) = (V c main_v42 : Vec Ideal S1x4096 .f32) (ix2 0 (cAt (t.val / 8) q)) := by
  unfold iblk2
  rw [View.read_apply]
  show (V c main_v42 : Vec Ideal S1x4096 .f32) _ = _
  refine congrArg (V c main_v42 : Vec Ideal S1x4096 .f32) (funext fun a => Fin.ext ?_)
  have ht : t.val < 16 := lt_of_lt_of_eq t.isLt (show cfg2.N = 16 from N_2)
  match a with
  | ⟨0, _⟩ =>
    show win2_2.index t 0 * 1 + 1 * 0 = 0
    rw [(idx2_2 t).1]
  | ⟨1, _⟩ =>
    show win2_2.index t 1 * 2048 + 1 * q.val = (2048 * (t.val / 8) + q.val) % 4096
    rw [(idx2_2 t).2]; omega

/-! ## A sum over 4096 terms in 8 blocks of 512 -/

theorem sum_blocks {M : Type*} [AddCommMonoid M] (nb R : ℕ) (f : Fin (nb * R) → M) :
    ∑ k : Fin (nb * R), f k = ∑ i : Fin nb, ∑ r : Fin R, f (finProdFinEquiv (i, r)) := by
  rw [← Equiv.sum_comp finProdFinEquiv f, Fintype.sum_prod_type]

theorem sum_4096 {M : Type*} [AddCommMonoid M] (f : Fin 4096 → M) :
    ∑ k : Fin 4096, f k = ∑ i ∈ Finset.range 8, ∑ r : Fin 512, f (kAt i r) := by
  refine (sum_blocks 8 512 f).trans ?_
  rw [Finset.sum_range]
  refine Finset.sum_congr rfl fun i _ => Finset.sum_congr rfl fun r _ => congrArg f (Fin.ext ?_)
  show r.val + 512 * i.val = (512 * i.val + r.val) % 4096
  have := i.isLt; have := r.isLt; omega

end Cert.KernelIdeal.Hand

end
-- ==== Proof.KI.R2Val.lean ====
/- REGION 2's VALUE at the ideal values: what each case of the body leaves, as payloads of the blocks it was given
   (the runs' pieces read back); the accumulator after every point as the partial inner product over the blocks of the
   contracted axis walked so far; the output window's buffer where it is written back; and the result array after the
   region: every entry the inner product of `tanh` of a row with a column of the weights, plus the bias. -/
import proofs.«154759_j4612794876151_1_alg».proof.Proof.KI.R2
import proofs.«154759_j4612794876151_1_alg».proof.Proof.KI.R2ValLib
import proofs.«154759_j4612794876151_1_alg».proof.Proof.Spec
set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

section Pieces
variable {F : FTy → Type} [FloatOps F]

theorem hz2 : (![0, 0] : Fin 2 → Nat) = fun _ => 0 := funext fun a => by fin_cases a <;> rfl

/-- Case A (the inner coordinate is 0) leaves in the accumulator the zero block plus the point's product. -/
theorem sout2_A_0_eq (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond2_0 i) (hc1 : ¬cond2_1 i)
    (x0 : Vec F S64x512 .f32) (x1 : Vec F S512x2048 .f32) (x2 : Vec F S1x2048 .f32) :
    sout2_A_0 c i arg2 harg2 arg3 harg3 arg4 harg4 arg5 harg5 arg6 harg6 hc0 hc1 x0 x1 x2 = k2_pay2 x0 x1 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S64x2048) hz2, View.readCov_unit_zero (S := S64x2048) _ hz2]
  simp only [View.readAt_eq_ld, harg2.read_unread, harg3.read_unread, View.ld_unit_zero (S := S64x512) hz2, View.ld_unit_zero (S := S512x2048) hz2]

/-- Case B (the inner coordinate is neither 0 nor 7) leaves in the accumulator what it found plus the point's product. -/
theorem sout2_B_0_eq (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : ¬cond2_1 i)
    (x0 : Vec F S64x512 .f32) (x1 : Vec F S512x2048 .f32) (x2 : Vec F S1x2048 .f32) (xs0 : Vec F S64x2048 .f32) :
    sout2_B_0 c i arg2 harg2 arg3 harg3 arg4 harg4 arg5 harg5 arg6 harg6 hc0 hc1 x0 x1 x2 xs0 = k2_pay2 x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  rw [View.canon_unit_zero (S := S64x2048) hz2]
  simp only [View.readAt_eq_ld, harg2.read_unread, harg3.read_unread, harg6.read_unread, View.ld_unit_zero (S := S64x512) hz2, View.ld_unit_zero (S := S512x2048) hz2, View.ld_unit_zero (S := S64x2048) hz2]

/-- Case C (the inner coordinate is 7) leaves in the accumulator what it found plus the point's product … -/
theorem sout2_C_0_eq (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) :
    sout2_C_0 c i arg2 harg2 arg3 harg3 arg4 harg4 arg5 harg5 arg6 harg6 hc0 hc1 x0 x1 x2 xs0 = k2_pay2 x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero (S := S64x2048) hz2]
  simp only [View.readAt_eq_ld, harg2.read_unread, harg3.read_unread, harg6.read_unread, View.ld_unit_zero (S := S64x512) hz2, View.ld_unit_zero (S := S512x2048) hz2, View.ld_unit_zero (S := S64x2048) hz2]

/-- … and in the output window's buffer that total plus the bias row. -/
theorem out2_C_3_eq (c : Dev nD) (i : grid2.Coords) (arg2 : Memref sig .tc .vmem S64x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond2_0 i) (hc1 : cond2_1 i)
    (x0 : Vec F S64x512 .f32) (x1 : Vec F S512x2048 .f32) (x2 : Vec F S1x2048 .f32) (xs0 : Vec F S64x2048 .f32) :
    out2_C_3 c i arg2 harg2 arg3 harg3 arg4 harg4 arg5 harg5 arg6 harg6 hc0 hc1 x0 x1 x2 xs0 = k2_pay3 (k2_pay2 x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero (S := S64x2048) hz2, View.readCov_unit_zero (S := S64x2048) _ hz2]
  simp only [View.readAt_eq_ld, harg2.read_unread, harg3.read_unread, harg4.read_unread, harg6.read_unread, View.ld_unit_zero (S := S64x512) hz2, View.ld_unit_zero (S := S512x2048) hz2, View.ld_unit_zero (S := S64x2048) hz2, View.ld_unit_zero (S := S1x2048) hz2]

end Pieces

/-! ## The accumulator point by point, at the ideal values -/

variable (V : (c : Dev nD) → (b : Ref sig .tc) → Buf (Elt Ideal) ((c : Thread nD τ).loc b))

/-- Block `i` of the contracted axis's share of the inner product of `tanh` of row `p` with column `2048 j + q`. -/
def share2 (c : Dev nD) (j i : ℕ) (p : Fin 64) (q : Fin 2048) : EReal :=
  ∑ r : Fin 512, Ideal.tanh ((V c main_v41 : Vec Ideal S64x4096 .f32) (ix2 p (kAt i r))) * (V c main_arg9 : Vec Ideal S4096x4096 .f32) (ix2 (kAt i r) (cAt j q))

/-- One accumulation at point `t`: the accumulator plus the share of the block of the contracted axis the point is at. -/
theorem pay2_point (c : Dev nD) (t : Fin cfg2.N) (acc : Vec Ideal S64x2048 .f32) (p : Fin 64) (q : Fin 2048) :
    k2_pay2 (iblk2 V c 0 t) (iblk2 V c 1 t) acc (ix2 p q) = acc (ix2 p q) + share2 V c (t.val / 8) (t.val % 8) p q :=
  (k2_pay2_apply (iblk2 V c 0 t) (iblk2 V c 1 t) acc p q).trans
    (congrArg (fun z => acc (ix2 p q) + z) (Finset.sum_congr rfl fun r _ =>
      congrArg₂ (fun a b => Ideal.tanh a * b) (iblk2_0_apply V c t p r) (iblk2_1_apply V c t r q)))

/-- Where the inner coordinate is 0 the accumulator is left at the first block's share. -/
theorem acc2_A (c : Dev nD) (t : Fin cfg2.N) (h0 : t.val % 8 = 0) (p : Fin 64) (q : Fin 2048) :
    (outsAt2 V c t.val t.isLt).2 (ix2 p q) = share2 V c (t.val / 8) 0 p q := by
  have h1 : ¬t.val % 8 = 7 := by omega
  rw [outsAt2_A V c t h0 h1]
  dsimp only
  rw [sout2_A_0_eq (F := Ideal)]
  refine (pay2_point V c t (k2_pay1 (F := Ideal)) p q).trans ?_
  rw [k2_pay1_apply p q, zero_add, h0]

/-- Elsewhere it is left at what the point before left plus the point's block's share. -/
theorem acc2_BC (c : Dev nD) (t : Fin cfg2.N) (h0 : ¬t.val % 8 = 0) (p : Fin 64) (q : Fin 2048) :
    (outsAt2 V c t.val t.isLt).2 (ix2 p q)
      = (outsAt2 V c (t.val - 1) (Nat.lt_of_le_of_lt (Nat.sub_le _ _) t.isLt)).2 (ix2 p q) + share2 V c (t.val / 8) (t.val % 8) p q := by
  by_cases h1 : t.val % 8 = 7
  · rw [outsAt2_C V c t h0 h1]
    dsimp only
    rw [sout2_C_0_eq (F := Ideal)]
    exact pay2_point V c t _ p q
  · rw [outsAt2_B V c t h0 h1]
    dsimp only
    rw [sout2_B_0_eq (F := Ideal)]
    exact pay2_point V c t _ p q

/-- After point `n` the accumulator holds the shares of the blocks of the contracted axis walked so far. -/
theorem acc2_eq (c : Dev nD) : ∀ (n : ℕ) (h : n < cfg2.N) (p : Fin 64) (q : Fin 2048),
    (outsAt2 V c n h).2 (ix2 p q) = ∑ i ∈ Finset.range (n % 8 + 1), share2 V c (n / 8) i p q := by
  intro n
  induction n with
  | zero =>
    intro h p q
    refine (acc2_A V c ⟨0, h⟩ (Nat.zero_mod 8) p q).trans ?_
    exact (Finset.sum_range_one (fun i => share2 V c (0 / 8) i p q)).symm
  | succ n ih =>
    intro h p q
    by_cases h0 : (n + 1) % 8 = 0
    · refine (acc2_A V c ⟨n + 1, h⟩ h0 p q).trans ?_
      rw [h0]
      exact (Finset.sum_range_one (fun i => share2 V c ((n + 1) / 8) i p q)).symm
    · refine (acc2_BC V c ⟨n + 1, h⟩ h0 p q).trans ?_
      show (outsAt2 V c n _).2 (ix2 p q) + share2 V c ((n + 1) / 8) ((n + 1) % 8) p q = _
      rw [ih (Nat.lt_of_succ_lt h) p q, show n / 8 = (n + 1) / 8 from by omega, show n % 8 + 1 = (n + 1) % 8 from by omega]
      exact (Finset.sum_range_succ _ _).symm

/-- Where the inner coordinate is 7 the output window's buffer is left at all eight shares plus the bias. -/
theorem out2_C_eq (c : Dev nD) (t : Fin cfg2.N) (h7 : t.val % 8 = 7) (p : Fin 64) (q : Fin 2048) :
    (outsAt2 V c t.val t.isLt).1 (ix2 p q)
      = (∑ i ∈ Finset.range 8, share2 V c (t.val / 8) i p q) + (V c main_v42 : Vec Ideal S1x4096 .f32) (ix2 0 (cAt (t.val / 8) q)) := by
  have h0 : ¬t.val % 8 = 0 := by omega
  rw [outsAt2_C V c t h0 h7]
  dsimp only
  rw [out2_C_3_eq (F := Ideal)]
  refine (k2_pay3_apply _ (iblk2 V c 2 t) p q).trans ?_
  rw [pay2_point V c t _ p q, iblk2_2_apply V c t q, acc2_eq V c (t.val - 1) _ p q]
  have e1 : (t.val - 1) / 8 = t.val / 8 := by omega
  have e2 : (t.val - 1) % 8 + 1 = 7 := by omega
  rw [e1, e2, h7]
  exact congrArg (fun z => z + (V c main_v42 : Vec Ideal S1x4096 .f32) (ix2 0 (cAt (t.val / 8) q))) (Finset.sum_range_succ (fun i => share2 V c (t.val / 8) i p q) 7).symm

/-! ## The result array after the region -/

theorem xsize2_3 : ∀ t : Fin cfg2.N, win2_3.xsize (grid2.coords t) 0 = 64 ∧ win2_3.xsize (grid2.coords t) 1 = 2048 :=
  (by decide +kernel : ∀ t : Fin grid2.N, win2_3.xsize (grid2.coords t) 0 = 64 ∧ win2_3.xsize (grid2.coords t) 1 = 2048)

/-- Every write-back writes its block of the inner products plus the bias. -/
theorem flushed_eq2 (c : Dev nD) (t : Fin cfg2.N) (hf : (cfg2.win 3).flush t = true) :
    (dat2 V c).flushed 3 t = ((cfg2.win 3).blk t).view.read (Elt Ideal) (Cert.Spec.tail (V c main_v41) (V c main_arg9) (V c main_v42)) := by
  have h7 : t.val % 8 = 7 := (flush2_3 t).mp hf
  have ht : t.val < 16 := lt_of_lt_of_eq t.isLt (show cfg2.N = 16 from N_2)
  show (cfg2.win 3).cut (grid2.coords t) ((dat2 V c).after 3 t) = _
  rw [after2_3]
  funext y
  obtain ⟨p, q, rfl⟩ : ∃ (p : Fin 64) (q : Fin 2048), y = ix2 p q := ⟨(y : S64x2048.Idx) 0, (y : S64x2048.Idx) 1, eq_ix2 (y : S64x2048.Idx)⟩
  rw [View.read_apply]
  show (outsAt2 V c t.val t.isLt).1 (ix2 p q) = (Cert.Spec.tail (V c main_v41) (V c main_arg9) (V c main_v42) : Vec Ideal S64x4096 .f32) _
  have hj : ((cfg2.win 3).blk t).view.emb (ix2 p q) = (ix2 p (cAt (t.val / 8) q) : S64x4096.Idx) := funext fun a => Fin.ext (by
    match a with
    | ⟨0, _⟩ =>
      show win2_3.index t 0 * 64 + 1 * p.val = p.val
      rw [(idx2_3 t).1]; omega
    | ⟨1, _⟩ =>
      show win2_3.index t 1 * 2048 + 1 * q.val = (2048 * (t.val / 8) + q.val) % 4096
      rw [(idx2_3 t).2]; omega)
  rw [hj, out2_C_eq V c t h7 p q]
  show _ = (∑ k : Fin 4096, Ideal.tanh ((V c main_v41 : Vec Ideal S64x4096 .f32) (ix2 p k)) * (V c main_arg9 : Vec Ideal S4096x4096 .f32) (ix2 k (cAt (t.val / 8) q))) + (V c main_v42 : Vec Ideal S1x4096 .f32) (ix2 0 (cAt (t.val / 8) q))
  exact congrArg (fun z => z + (V c main_v42 : Vec Ideal S1x4096 .f32) (ix2 0 (cAt (t.val / 8) q)))
    (sum_4096 (fun k : Fin 4096 => Ideal.tanh ((V c main_v41 : Vec Ideal S64x4096 .f32) (ix2 p k)) * (V c main_arg9 : Vec Ideal S4096x4096 .f32) (ix2 k (cAt (t.val / 8) q)))).symm

/-- The write-backs cover the result array: column `q` is in the block written back at the last point of its column block. -/
theorem cover2 (i : S64x4096.Idx) : ∃ t : Fin cfg2.N, (cfg2.win 3).flush t = true ∧ i ∈ ((cfg2.win 3).blk t).view.set := by
  have h0 : (i 0 : Nat) < 64 := (i 0).isLt
  have h1 : (i 1 : Nat) < 4096 := (i 1).isLt
  have hN : cfg2.N = 16 := N_2
  have hlt : (i 1).val / 2048 * 8 + 7 < cfg2.N := by rw [hN]; omega
  refine ⟨⟨(i 1).val / 2048 * 8 + 7, hlt⟩, (flush2_3 _).mpr (by show ((i 1).val / 2048 * 8 + 7) % 8 = 7; omega), ?_⟩
  generalize ht : (⟨(i 1).val / 2048 * 8 + 7, hlt⟩ : Fin cfg2.N) = t
  have htv : t.val = (i 1).val / 2048 * 8 + 7 := by rw [← ht]
  show i ∈ ((View.whole main_v43).slice (win2_3.rect t)).set
  rw [View.set_slice_whole, Rect.mem_set_unit]
  intro a
  match a with
  | ⟨0, _⟩ =>
    show win2_3.index t 0 * win2_3.size 0 ≤ (i 0 : Nat) ∧ (i 0 : Nat) < win2_3.index t 0 * win2_3.size 0 + win2_3.xsize (grid2.coords t) 0
    rw [(idx2_3 t).1, (xsize2_3 t).1]; omega
  | ⟨1, _⟩ =>
    show win2_3.index t 1 * win2_3.size 1 ≤ (i 1 : Nat) ∧ (i 1 : Nat) < win2_3.index t 1 * win2_3.size 1 + win2_3.xsize (grid2.coords t) 1
    rw [(idx2_3 t).2, (xsize2_3 t).2, show win2_3.size 1 = 2048 from rfl, htv]; omega

/-- THE VALUE OF REGION 2: after the region the result array holds, at every `(p, q)`, the inner product of `tanh` of
    row `p` with column `q` of the weights, plus the bias at `q`. -/
theorem final2 (c : Dev nD) :
    (dat2 (F := Ideal) V c).arrAt 3 cfg2.N = Cert.Spec.tail (V c main_v41) (V c main_arg9) (V c main_v42) :=
  (dat2 (F := Ideal) V c).arrAt_eq_of_cover 3 (Cert.Spec.tail (V c main_v41) (V c main_arg9) (V c main_v42)) (flushed_eq2 V c) cover2

end Cert.KernelIdeal.Hand

end
-- ==== Proof.KI.FinalTail.lean ====
/-
  The second result of the kernel program at the end: region 2's output array, one whole-array function of the first
  result, the square weights and the bias row it is entered with.
-/
import proofs.«154759_j4612794876151_1_alg».proof.Proof.KI.Final
import proofs.«154759_j4612794876151_1_alg».proof.Proof.KI.R2Val

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-- The second result at the end: region 2's output array. -/
theorem W6_v43 : W6 m ρ c (Proc.devRef .tc main_v43) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ((final2 (V5 m ρ) c).trans ?_)
  have e9 : V5 m ρ c main_arg9 = (m ((c : Thread nD τ).loc main_arg9)) :=
    W5_launch m ρ c main_arg9 (by decide) (by decide) (by decide) (by decide) (by decide)
  have e42 : V5 m ρ c main_v42 = row10 (m ((c : Thread nD τ).loc main_arg10)) :=
    (host2_v42 (W4 m ρ c)).trans (congrArg row10 (W4_launch m ρ c main_arg10 (by decide) (by decide) (by decide) (by decide)))
  rw [W5_v41 m ρ c, e9, e42]
  rfl

end Cert.KernelIdeal.Hand

end
-- ==== Proof.RefImports.lean ====
/- The reference program's run and its operations read at an index, gathered for the modules that compare the two programs. -/
import proofs.«154759_j4612794876151_1_alg».proof.Proof.Gen.ReferenceIdeal.Run
import proofs.«154759_j4612794876151_1_alg».proof.Proof.Gen.ReferenceIdeal.Read
-- ==== Proof.RefSpec.lean ====
/-
  The reference program's stages are the specification's functions, on the extended reals.
  Layer 1: stage 23 is `sage1` of the input column, its mean-aggregated neighbours (stage 16, left opaque), the two weight rows and the bias row.
  Layer 2: stage 47 is `sage2` of stage 23, its mean-aggregated neighbours (stage 41, left opaque), the weight columns read as rows, and the bias.
  Tail: stage 53 is `tail` of stage 48 (stage 47 reshaped), the weight matrix and the bias row.
  The biases of the reference are vectors broadcast to every row; the specification takes them as rows, so each theorem has the
  hypothesis that the row agrees with the vector.
-/
import proofs.«154759_j4612794876151_1_alg».proof.Proof.RefImports
import proofs.«154759_j4612794876151_1_alg».proof.Proof.Spec
import Idealize.ShloMosaic.Lib.ValueIdx
import Idealize.ShloMosaic.PureOps.Ideal.Laws

noncomputable section

namespace Cert.RefSpec

open Cert.ReferenceIdeal Cert.ReferenceIdeal.Read Idealize.ShloMosaic Idealize.ShloMosaic.ValueIdx

/-- Layer 1. At `(p, q)` the two contractions run over an axis of size one, so each is a single product; the bias vector is
    read at `q` whatever the row. -/
theorem ref_layer1 (x0 : (⟨S262144x1, .f32⟩ : BufTy).Contents (Elt Ideal)) (x1 x2 : (⟨S2097152, .i32⟩ : BufTy).Contents (Elt Ideal))
    (x3 x4 : (⟨S1x128, .f32⟩ : BufTy).Contents (Elt Ideal)) (x5 : (⟨S128, .f32⟩ : BufTy).Contents (Elt Ideal))
    (b : FVec Ideal ⟨2, ![1, 128]⟩ .f32) (hb : ∀ q : Fin 128, b (ix2 0 q) = x5 (ix1 q)) :
    val_main_v23 (F := Ideal) x0 x1 x2 x3 x4 x5 = Cert.Spec.sage1 x0 (val_main_v16 (F := Ideal) x0 x1 x2) x3 x4 b := by
  funext i
  obtain ⟨p, q, rfl⟩ : ∃ (p : Fin 262144) (q : Fin 128), i = ix2 p q := ⟨i 0, i 1, eq_ix2 i⟩
  rw [val_main_v23_apply, val_main_v22_apply, val_main_v19_apply, val_main_v17_apply, val_main_v18_apply, val_main_v21_apply,
    val_main_v20_apply]
  generalize val_main_v16 (F := Ideal) x0 x1 x2 = hn
  have el : lidx_main_v17 (ix2 p q) 0 = ix2 p 0 := funext fun a => Fin.ext (by match a with | ⟨0, _⟩ => rfl | ⟨1, _⟩ => rfl)
  have er : ridx_main_v17 (ix2 p q) 0 = ix2 0 q := funext fun a => Fin.ext (by match a with | ⟨0, _⟩ => rfl | ⟨1, _⟩ => rfl)
  have el' : lidx_main_v18 (ix2 p q) 0 = ix2 p 0 := funext fun a => Fin.ext (by match a with | ⟨0, _⟩ => rfl | ⟨1, _⟩ => rfl)
  have er' : ridx_main_v18 (ix2 p q) 0 = ix2 0 q := funext fun a => Fin.ext (by match a with | ⟨0, _⟩ => rfl | ⟨1, _⟩ => rfl)
  have eb : idx_main_v20 (idx_main_v21 (ix2 p q)) = ix1 q := funext fun a => Fin.ext (by match a with | ⟨0, _⟩ => rfl)
  simp only [Fin.sum_univ_one, el, er, el', er', eb, Ideal.addf_def, Ideal.hostUnary_tanh_def, Cert.Spec.sage1, hb]

/-- Layer 2. At row `p` each contraction runs over the 128 features; the weight columns are read as the rows `ws`, `wn`; the
    one-element bias is read at its only index. -/
theorem ref_layer2 (x0 : (⟨S262144x1, .f32⟩ : BufTy).Contents (Elt Ideal)) (x1 x2 : (⟨S2097152, .i32⟩ : BufTy).Contents (Elt Ideal))
    (x3 x4 : (⟨S1x128, .f32⟩ : BufTy).Contents (Elt Ideal)) (x5 : (⟨S128, .f32⟩ : BufTy).Contents (Elt Ideal))
    (x6 x7 : (⟨S128x1, .f32⟩ : BufTy).Contents (Elt Ideal)) (x8 : (⟨S1, .f32⟩ : BufTy).Contents (Elt Ideal))
    (ws wn : FVec Ideal ⟨2, ![1, 128]⟩ .f32) (b : FVec Ideal ⟨2, ![1, 1]⟩ .f32)
    (hws : ∀ k : Fin 128, ws (ix2 0 k) = x6 (ix2 k 0)) (hwn : ∀ k : Fin 128, wn (ix2 0 k) = x7 (ix2 k 0))
    (hb : b (ix2 0 0) = x8 (ix1 0)) :
    val_main_v47 (F := Ideal) x0 x1 x2 x3 x4 x5 x6 x7 x8 =
      Cert.Spec.sage2 (val_main_v23 (F := Ideal) x0 x1 x2 x3 x4 x5) (val_main_v41 (F := Ideal) x0 x1 x2 x3 x4 x5) ws wn b := by
  funext i
  obtain ⟨p, z, rfl⟩ : ∃ (p : Fin 262144) (z : Fin 1), i = ix2 p z := ⟨i 0, i 1, eq_ix2 i⟩
  obtain rfl : z = 0 := Subsingleton.elim _ _
  rw [val_main_v47_apply, val_main_v44_apply, val_main_v42_apply, val_main_v43_apply, val_main_v46_apply, val_main_v45_apply]
  generalize val_main_v23 (F := Ideal) x0 x1 x2 x3 x4 x5 = h
  generalize val_main_v41 (F := Ideal) x0 x1 x2 x3 x4 x5 = hn
  have el : ∀ k : Fin 128, lidx_main_v42 (ix2 p 0) k = ix2 p k := fun k =>
    funext fun a => Fin.ext (by match a with | ⟨0, _⟩ => rfl | ⟨1, _⟩ => rfl)
  have er : ∀ k : Fin 128, ridx_main_v42 (ix2 p 0) k = ix2 k 0 := fun k =>
    funext fun a => Fin.ext (by match a with | ⟨0, _⟩ => rfl | ⟨1, _⟩ => rfl)
  have el' : ∀ k : Fin 128, lidx_main_v43 (ix2 p 0) k = ix2 p k := fun k =>
    funext fun a => Fin.ext (by match a with | ⟨0, _⟩ => rfl | ⟨1, _⟩ => rfl)
  have er' : ∀ k : Fin 128, ridx_main_v43 (ix2 p 0) k = ix2 k 0 := fun k =>
    funext fun a => Fin.ext (by match a with | ⟨0, _⟩ => rfl | ⟨1, _⟩ => rfl)
  have eb : idx_main_v45 (idx_main_v46 (ix2 p 0)) = ix1 0 := funext fun a => Fin.ext (by match a with | ⟨0, _⟩ => rfl)
  simp only [el, er, el', er', eb, Ideal.addf_def, Cert.Spec.sage2, hws, hwn, hb]

/-- The tail. At `(p, q)` the contraction runs over the 4096 columns of row `p` of `tanh` of stage 48; the bias vector is read
    at `q` whatever the row. -/
theorem ref_tail (x0 : (⟨S262144x1, .f32⟩ : BufTy).Contents (Elt Ideal)) (x1 x2 : (⟨S2097152, .i32⟩ : BufTy).Contents (Elt Ideal))
    (x3 x4 : (⟨S1x128, .f32⟩ : BufTy).Contents (Elt Ideal)) (x5 : (⟨S128, .f32⟩ : BufTy).Contents (Elt Ideal))
    (x6 x7 : (⟨S128x1, .f32⟩ : BufTy).Contents (Elt Ideal)) (x8 : (⟨S1, .f32⟩ : BufTy).Contents (Elt Ideal))
    (x9 : (⟨S4096x4096, .f32⟩ : BufTy).Contents (Elt Ideal)) (x10 : (⟨S4096, .f32⟩ : BufTy).Contents (Elt Ideal))
    (b : FVec Ideal ⟨2, ![1, 4096]⟩ .f32) (hb : ∀ q : Fin 4096, b (ix2 0 q) = x10 (ix1 q)) :
    val_main_v53 (F := Ideal) x0 x1 x2 x3 x4 x5 x6 x7 x8 x9 x10 =
      Cert.Spec.tail (val_main_v48 (F := Ideal) x0 x1 x2 x3 x4 x5 x6 x7 x8) x9 b := by
  funext i
  obtain ⟨p, q, rfl⟩ : ∃ (p : Fin 64) (q : Fin 4096), i = ix2 p q := ⟨i 0, i 1, eq_ix2 i⟩
  rw [val_main_v53_apply, val_main_v50_apply, val_main_v52_apply, val_main_v51_apply]
  simp only [val_main_v49_apply]
  generalize val_main_v48 (F := Ideal) x0 x1 x2 x3 x4 x5 x6 x7 x8 = y
  have el : ∀ k : Fin 4096, lidx_main_v50 (ix2 p q) k = ix2 p k := fun k =>
    funext fun a => Fin.ext (by match a with | ⟨0, _⟩ => rfl | ⟨1, _⟩ => rfl)
  have er : ∀ k : Fin 4096, ridx_main_v50 (ix2 p q) k = ix2 k q := fun k =>
    funext fun a => Fin.ext (by match a with | ⟨0, _⟩ => rfl | ⟨1, _⟩ => rfl)
  have eb : idx_main_v51 (idx_main_v52 (ix2 p q)) = ix1 q := funext fun a => Fin.ext (by match a with | ⟨0, _⟩ => rfl)
  simp only [el, er, eb, Ideal.addf_def, Ideal.hostUnary_tanh_def, Cert.Spec.tail, hb]

end Cert.RefSpec

end
-- ==== Proof.LibColumn.lean ====
/-
  Two keepdims-style reshapes read at an index written by coordinates, for any extent and element type: a vector
  kept as a column, [a] -> [a, 1], and a column laid out as a row, [a, 1] -> [1, a].
-/
import Idealize.ShloMosaic.Lib.Pipeline.Value
import Idealize.ShloMosaic.Lib.ValueIdx

namespace Cert.LibColumn

open Idealize.ShloMosaic Idealize.ShloMosaic.ValueIdx

variable {α : Type}

/-- A vector kept as a column reads, at (i, 0), its entry i. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid out as a row reads, at (0, i), the column's entry (i, 0). -/
theorem cast_col_row {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Cert.LibColumn
-- ==== Proof.HostBridge.lean ====
/- The two programs' host chains agree. The kernel program and the reference apply the same tensor operations, with
   the same dimension records, to compute the mean aggregation over the edges; each program carries its own copy of the
   shapes and records, and the copies are equal field by field. So the reference's aggregation stages are the kernel
   program's aggregation terms at the same operands, and the reshapes both programs apply are the same arrays.
   The rows the kernels read (a vector, or a column, laid out as one row) are then read at an index. -/
import proofs.«154759_j4612794876151_1_alg».proof.Proof.KI.Host
import proofs.«154759_j4612794876151_1_alg».proof.Proof.RefImports
import proofs.«154759_j4612794876151_1_alg».proof.Proof.LibColumn
import Idealize.ShloMosaic.Lib.ValueLayout

noncomputable section

namespace Cert.HostBridge

open Idealize.ShloMosaic Idealize.ShloMosaic.ValueIdx
open Cert.KernelIdeal.Hand

/-! ## The two programs' dimension records are equal -/

theorem gather1_eq : Cert.ReferenceIdeal.gather_S262144x1_S2097152x1_S2097152x1_1_0_n_n_0_1_11
    = Cert.KernelIdeal.gather_S262144x1_S2097152x1_S2097152x1_1_0_n_n_0_1_11 := rfl
theorem scatter1_eq : Cert.ReferenceIdeal.scatter_S262144x1_S2097152x1_S2097152x1_1_0_0_1
    = Cert.KernelIdeal.scatter_S262144x1_S2097152x1_S2097152x1_1_0_0_1 := rfl
theorem gather128_eq : Cert.ReferenceIdeal.gather_S262144x128_S2097152x1_S2097152x128_1_0_n_n_0_1_1128
    = Cert.KernelIdeal.gather_S262144x128_S2097152x1_S2097152x128_1_0_n_n_0_1_1128 := rfl
theorem scatter128_eq : Cert.ReferenceIdeal.scatter_S262144x128_S2097152x1_S2097152x128_1_0_0_1
    = Cert.KernelIdeal.scatter_S262144x128_S2097152x1_S2097152x128_1_0_0_1 := rfl

/-! ## The aggregations -/

open Cert.ReferenceIdeal.Read in
set_option maxHeartbeats 400000 in
/-- The reference's first aggregation is the kernel program's, at the same features and edges. -/
theorem agg1_ref (x0 : (⟨Cert.KernelIdeal.S262144x1, .f32⟩ : BufTy).Contents (Elt Ideal))
    (x1 x2 : (⟨Cert.KernelIdeal.S2097152, .i32⟩ : BufTy).Contents (Elt Ideal)) :
    Cert.ReferenceIdeal.Read.val_main_v16 (F := Ideal) x0 x1 x2 = agg1 (F := Ideal) x0 x1 x2 := by
  unfold val_main_v16 val_main_v15 val_main_v14 val_main_cst_3 val_main_v13 val_main_v12 val_main_v11 val_main_cst_2
    val_main_v10 val_main_cst_1 val_main_v9 val_main_v8 val_main_v7 val_main_cst val_main_v6 val_main_v5 val_main_v4
    val_main_v3 val_main_v2 val_main_c_0 val_main_v1 val_main_v0 val_main_c agg1
  rw [gather1_eq, scatter1_eq]

open Cert.ReferenceIdeal.Read in
set_option maxHeartbeats 400000 in
/-- The reference's second aggregation is the kernel program's, of the reference's first layer at the same edges. -/
theorem agg2_ref (x0 : (⟨Cert.KernelIdeal.S262144x1, .f32⟩ : BufTy).Contents (Elt Ideal))
    (x1 x2 : (⟨Cert.KernelIdeal.S2097152, .i32⟩ : BufTy).Contents (Elt Ideal))
    (x3 x4 : (⟨Cert.KernelIdeal.S1x128, .f32⟩ : BufTy).Contents (Elt Ideal)) (x5 : (⟨Cert.KernelIdeal.S128, .f32⟩ : BufTy).Contents (Elt Ideal)) :
    Cert.ReferenceIdeal.Read.val_main_v41 (F := Ideal) x0 x1 x2 x3 x4 x5
      = agg2 (F := Ideal) (Cert.ReferenceIdeal.Read.val_main_v23 (F := Ideal) x0 x1 x2 x3 x4 x5) x1 x2 := by
  unfold val_main_v41 val_main_v40 val_main_v39 val_main_v38 val_main_cst_9 val_main_v37 val_main_v36 val_main_v35
    val_main_cst_8 val_main_v34 val_main_cst_7 val_main_v33 val_main_v32 val_main_v31 val_main_cst_6 val_main_v30
    val_main_v29 val_main_v28 val_main_v27 val_main_v26 val_main_c_5 val_main_v25 val_main_v24 val_main_c_4 agg2
  generalize val_main_v23 (F := Ideal) x0 x1 x2 x3 x4 x5 = h
  rw [gather128_eq, scatter128_eq, scatter1_eq]

/-! ## The reshapes -/

/-- The reference's first result is the kernel program's 64-by-4096 layout of the reference's second layer. -/
theorem grid41_ref (x0 : (⟨Cert.KernelIdeal.S262144x1, .f32⟩ : BufTy).Contents (Elt Ideal))
    (x1 x2 : (⟨Cert.KernelIdeal.S2097152, .i32⟩ : BufTy).Contents (Elt Ideal))
    (x3 x4 : (⟨Cert.KernelIdeal.S1x128, .f32⟩ : BufTy).Contents (Elt Ideal)) (x5 : (⟨Cert.KernelIdeal.S128, .f32⟩ : BufTy).Contents (Elt Ideal))
    (x6 x7 : (⟨Cert.KernelIdeal.S128x1, .f32⟩ : BufTy).Contents (Elt Ideal)) (x8 : (⟨Cert.KernelIdeal.S1, .f32⟩ : BufTy).Contents (Elt Ideal)) :
    Cert.ReferenceIdeal.Read.val_main_v48 (F := Ideal) x0 x1 x2 x3 x4 x5 x6 x7 x8
      = grid41 (F := Ideal) (Cert.ReferenceIdeal.Read.val_main_v47 (F := Ideal) x0 x1 x2 x3 x4 x5 x6 x7 x8) := rfl

/-! ## The rows read at an index -/

/-- The bias of the first layer as a row: entry (0, q) is the vector's entry q. -/
theorem row5_apply (x5 : (⟨Cert.KernelIdeal.S128, .f32⟩ : BufTy).Contents (Elt Ideal)) (q : Fin 128) :
    row5 (F := Ideal) x5 (ix2 (0 : Fin 1) q) = x5 (ix1 q) :=
  shapeCast_a_1a_apply x5 _ 0 q

/-- A weight column of the second layer as a row: entry (0, k) is the column's entry (k, 0). -/
theorem row6_apply (x6 : (⟨Cert.KernelIdeal.S128x1, .f32⟩ : BufTy).Contents (Elt Ideal)) (k : Fin 128) :
    row6 (F := Ideal) x6 (ix2 (0 : Fin 1) k) = x6 (ix2 k (0 : Fin 1)) :=
  Cert.LibColumn.cast_col_row x6 _ 0 k

/-- The other weight column of the second layer as a row: entry (0, k) is the column's entry (k, 0). -/
theorem row7_apply (x7 : (⟨Cert.KernelIdeal.S128x1, .f32⟩ : BufTy).Contents (Elt Ideal)) (k : Fin 128) :
    row7 (F := Ideal) x7 (ix2 (0 : Fin 1) k) = x7 (ix2 k (0 : Fin 1)) :=
  Cert.LibColumn.cast_col_row x7 _ 0 k

/-- The bias of the second layer as a one-by-one array: its entry is the vector's one entry. -/
theorem row8_apply (x8 : (⟨Cert.KernelIdeal.S1, .f32⟩ : BufTy).Contents (Elt Ideal)) :
    row8 (F := Ideal) x8 (ix2 (0 : Fin 1) (0 : Fin 1)) = x8 (ix1 (0 : Fin 1)) :=
  shapeCast_a_1a_apply x8 _ 0 0

/-- The bias of the last product as a row: entry (0, q) is the vector's entry q. -/
theorem row10_apply (x10 : (⟨Cert.KernelIdeal.S4096, .f32⟩ : BufTy).Contents (Elt Ideal)) (q : Fin 4096) :
    row10 (F := Ideal) x10 (ix2 (0 : Fin 1) q) = x10 (ix1 q) :=
  shapeCast_a_1a_apply x10 _ 0 q

end Cert.HostBridge

end
-- ==== Proof.Bridge.lean ====
/-
  The reference's two results are the kernel program's two result functions of the same arguments: layer by layer the
  reference's stages are the specification's functions (the weights' and biases' rows read entry by entry), and its two
  mean-aggregations over the edges are the kernel program's, operation for operation.
-/
import proofs.«154759_j4612794876151_1_alg».proof.Proof.KI.Final
import proofs.«154759_j4612794876151_1_alg».proof.Proof.RefSpec
import proofs.«154759_j4612794876151_1_alg».proof.Proof.HostBridge

noncomputable section

namespace Cert.Bridge

open Idealize.ShloMosaic Idealize.ShloMosaic.ValueIdx
open Cert.KernelIdeal.Hand Cert.ReferenceIdeal.Read

/-- The reference's first result is the kernel program's first result function. -/
theorem ref_out0 (x0 : (⟨Cert.KernelIdeal.S262144x1, .f32⟩ : BufTy).Contents (Elt Ideal)) (x1 x2 : (⟨Cert.KernelIdeal.S2097152, .i32⟩ : BufTy).Contents (Elt Ideal)) (x3 x4 : (⟨Cert.KernelIdeal.S1x128, .f32⟩ : BufTy).Contents (Elt Ideal)) (x5 : (⟨Cert.KernelIdeal.S128, .f32⟩ : BufTy).Contents (Elt Ideal))
    (x6 x7 : (⟨Cert.KernelIdeal.S128x1, .f32⟩ : BufTy).Contents (Elt Ideal)) (x8 : (⟨Cert.KernelIdeal.S1, .f32⟩ : BufTy).Contents (Elt Ideal)) :
    val_main_v48 (F := Ideal) x0 x1 x2 x3 x4 x5 x6 x7 x8 = out0 x0 x1 x2 x3 x4 x5 x6 x7 x8 := by
  unfold out0 layer2 layer1
  rw [Cert.HostBridge.grid41_ref,
    Cert.RefSpec.ref_layer2 x0 x1 x2 x3 x4 x5 x6 x7 x8 (row6 x6) (row7 x7) (row8 x8)
      (Cert.HostBridge.row6_apply x6) (Cert.HostBridge.row7_apply x7) (Cert.HostBridge.row8_apply x8),
    Cert.HostBridge.agg2_ref,
    Cert.RefSpec.ref_layer1 x0 x1 x2 x3 x4 x5 (row5 x5) (Cert.HostBridge.row5_apply x5),
    Cert.HostBridge.agg1_ref]

/-- The reference's second result is the kernel program's second result function. -/
theorem ref_out1 (x0 : (⟨Cert.KernelIdeal.S262144x1, .f32⟩ : BufTy).Contents (Elt Ideal)) (x1 x2 : (⟨Cert.KernelIdeal.S2097152, .i32⟩ : BufTy).Contents (Elt Ideal)) (x3 x4 : (⟨Cert.KernelIdeal.S1x128, .f32⟩ : BufTy).Contents (Elt Ideal)) (x5 : (⟨Cert.KernelIdeal.S128, .f32⟩ : BufTy).Contents (Elt Ideal))
    (x6 x7 : (⟨Cert.KernelIdeal.S128x1, .f32⟩ : BufTy).Contents (Elt Ideal)) (x8 : (⟨Cert.KernelIdeal.S1, .f32⟩ : BufTy).Contents (Elt Ideal))
    (x9 : (⟨Cert.KernelIdeal.S4096x4096, .f32⟩ : BufTy).Contents (Elt Ideal)) (x10 : (⟨Cert.KernelIdeal.S4096, .f32⟩ : BufTy).Contents (Elt Ideal)) :
    val_main_v53 (F := Ideal) x0 x1 x2 x3 x4 x5 x6 x7 x8 x9 x10 = out1 x0 x1 x2 x3 x4 x5 x6 x7 x8 x9 x10 := by
  unfold out1
  rw [Cert.RefSpec.ref_tail x0 x1 x2 x3 x4 x5 x6 x7 x8 x9 x10 (row10 x10) (Cert.HostBridge.row10_apply x10),
    ref_out0]

end Cert.Bridge

end
-- ==== Proof.lean ====
/-
  The certificate of a three-kernel graph network against its plain reference, at the ideal values.
  The kernel program computes a mean-aggregation over the edges on the host, a first fused layer
  tanh (x · ws + mean · wn + b), a second aggregation, a second fused layer of two inner products over the 128
  features, and a tail product tanh (y) · W + b accumulated over eight blocks of the contracted axis. The reference
  computes the same with matrix products. On the extended reals the two agree index by index: the products over a
  contracted axis of size one are single terms, the lane sums are the inner products, and the eight block sums are one
  sum over the 4096 terms — only associativity and commutativity of addition are used, so no finiteness is needed.
  Frames: each region's body runs on its blocks and leaves every argument array as launched; the idealization rewrote
  nothing, so it is the program's own text.
-/
import proofs.«154759_j4612794876151_1_alg».proof.Defs
import proofs.«154759_j4612794876151_1_alg».proof.Proof.Gen.Kernel
import proofs.«154759_j4612794876151_1_alg».proof.Proof.Gen.KernelIdeal
import proofs.«154759_j4612794876151_1_alg».proof.Proof.Gen.ReferenceIdeal
import proofs.«154759_j4612794876151_1_alg».proof.Proof.Gen.Pre_finite_inputs
import proofs.«154759_j4612794876151_1_alg».proof.Proof.K.Run
import proofs.«154759_j4612794876151_1_alg».proof.Proof.KI.Run
import proofs.«154759_j4612794876151_1_alg».proof.Proof.KI.Final
import proofs.«154759_j4612794876151_1_alg».proof.Proof.KI.FinalTail
import proofs.«154759_j4612794876151_1_alg».proof.Proof.Bridge
import proofs.«154759_j4612794876151_1_alg».proof.Proof.RefImports
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.run_frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.run_frame m ρ

/-- The reference is host operations only: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with the two result functions of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W6 m ρ c (Proc.devRef .tc Cert.KernelIdeal.main_v41),
    fun c => Cert.KernelIdeal.Hand.W6 m ρ c (Proc.devRef .tc Cert.KernelIdeal.main_v43),
    Cert.KernelIdeal.Hand.run_results m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v48_eq, e0, e1, e2, e3, e4, e5, e6, e7, e8]
    exact (Cert.Bridge.ref_out0 _ _ _ _ _ _ _ _ _).trans (Cert.KernelIdeal.Hand.W6_v41 m ρ c).symm
  · obtain ⟨e0, e1, e2, e3, e4, e5, e6, e7, e8, e9, e10⟩ := hagree c
    rw [Cert.ReferenceIdeal.Read.val_main_v53_eq, e0, e1, e2, e3, e4, e5, e6, e7, e8, e9, e10]
    exact (Cert.Bridge.ref_out1 _ _ _ _ _ _ _ _ _ _ _).trans (Cert.KernelIdeal.Hand.W6_v43 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
